-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v73) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x16 : S_.BroadcastsInDim S128x16 (![] : Fin 0 → Fin S128x16.rank)
  reducesTo_S128x16_S_d0_1 : S128x16.ReducesTo [0, 1] S_
  bcast_S_S16 : S_.BroadcastsInDim S16 (![] : Fin 0 → Fin S16.rank)
  reducesTo_S16_S_d0 : S16.ReducesTo [0] S_

variable [Facts]

def fn_part1 {F : FTy → Type} [FloatOps F] (main_arg6 : FVec F S128 .f32) (main_arg7 : FVec F S128x16 .f32) (main_arg8 : FVec F S16 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x16 .f32 := Host.absf main_arg7
  let main_cst_8 : FVec F S_ .f32 := constant S_ .f32 0x7F800000#32
  let main_v25 : FVec F S128x16 .f32 := broadcastInDim S128x16 ![] bcast_S_S128x16 main_cst_8
  let main_v26 : IVec S128x16 1 := cmpf .olt main_v24 main_v25
  let main_c_9 : IVec S_ 1 := constantI S_ 1 1#1
  let main_v27 : IVec S_ 1 := (fun x v => Host.reduce IntOp.andi x v reducesTo_S128x16_S_d0_1 h_S_) main_v26 main_c_9
  let main_v28 : IVec S_ 1 := andi main_v23 main_v27
  let main_v29 : FVec F S16 .f32 := Host.absf main_arg8
  let main_cst_10 : FVec F S_ .f32 := constant S_ .f32 0x7F800000#32
  let main_v30 : FVec F S16 .f32 := broadcastInDim S16 ![] bcast_S_S16 main_cst_10
  let main_v31 : IVec S16 1 := cmpf .olt main_v29 main_v30
  let main_c_11 : IVec S_ 1 := constantI S_ 1 1#1
  let main_v32 : IVec S_ 1 := (fun x v => Host.reduce IntOp.andi x v reducesTo_S16_S_d0 h_S_) main_v31 main_c_11
  let main_v33 : IVec S_ 1 := andi main_v28 main_v32
  main_v33

def fn {F : FTy → Type} [FloatOps F] (main_arg0 : FVec F S100000x128 .f32) (main_arg1 : IVec S600000 32) (main_arg2 : IVec S600000 32) (main_arg3 : FVec F S128x128 .f32) (main_arg4 : FVec F S128 .f32) (main_arg5 : FVec F S128x128 .f32) (main_arg6 : FVec F S128 .f32) (main_arg7 : FVec F S128x16 .f32) (main_arg8 : FVec F S16 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_v13 main_v16
-- ==== Kernel.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S1x128 : Shape := ⟨2, ![1, 128]⟩
abbrev S2000x128 : Shape := ⟨2, ![2000, 128]⟩
abbrev S2000x1 : Shape := ⟨2, ![2000, 1]⟩
abbrev S600000x128 : Shape := ⟨2, ![600000, 128]⟩
abbrev S100000x16 : Shape := ⟨2, ![100000, 16]⟩

abbrev nBuf : Space → Nat
  | .hbm => 70
  | .vmem => 34
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S_, .f32⟩
  | .hbm, ⟨10, _⟩ => ⟨S600000, .f32⟩
  | .hbm, ⟨11, _⟩ => ⟨S_, .f32⟩
  | .hbm, ⟨12, _⟩ => ⟨S100000, .f32⟩
  | .hbm, ⟨13, _⟩ => ⟨S600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S600000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .f32⟩
  | .hbm, ⟨22, _⟩ => ⟨S100000, .f32⟩
  | .hbm, ⟨23, _⟩ => ⟨S100000x1, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S1x128, .f32⟩
  | .hbm, ⟨30, _⟩ => ⟨S1x128, .f32⟩
  | .hbm, ⟨31, _⟩ => ⟨S100000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S100000x128, .f32⟩
  | .hbm, ⟨43, _⟩ => ⟨S600000x1, .i32⟩
  | .hbm, ⟨44, _⟩ => ⟨S100000x128, .f32⟩
  | .hbm, ⟨45, _⟩ => ⟨S100000x128, .f32⟩
  | .hbm, ⟨46, _⟩ => ⟨S100000x128, .f32⟩
  | .hbm, ⟨47, _⟩ => ⟨S_, .i32⟩
  | .hbm, ⟨48, _⟩ => ⟨S600000, .i32⟩
  | .hbm, ⟨49, _⟩ => ⟨S600000, .i1⟩
  | .hbm, ⟨50, _⟩ => ⟨S_, .i32⟩
  | .hbm, ⟨51, _⟩ => ⟨S600000, .i32⟩
  | .hbm, ⟨52, _⟩ => ⟨S600000, .i32⟩
  | .hbm, ⟨53, _⟩ => ⟨S600000, .i32⟩
  | .hbm, ⟨54, _⟩ => ⟨S600000x1, .i32⟩
  | .hbm, ⟨55, _⟩ => ⟨S600000x128, .f32⟩
  | .hbm, ⟨56, _⟩ => ⟨S_, .f32⟩
  | .hbm, ⟨57, _⟩ => ⟨S100000x128, .f32⟩
  | .hbm, ⟨58, _⟩ => ⟨S600000x1, .i32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S_, .f32⟩
  | .hbm, ⟨63, _⟩ => ⟨S128x128, .f32⟩
  | .hbm, ⟨64, _⟩ => ⟨S_, .i32⟩
  | .hbm, ⟨65, _⟩ => ⟨S_, .f32⟩
  | .hbm, ⟨66, _⟩ => ⟨S128, .f32⟩
  | .hbm, ⟨67, _⟩ => ⟨S1x128, .f32⟩
  | .hbm, ⟨68, _⟩ => ⟨S100000x128, .f32⟩
  | .hbm, ⟨69, _⟩ => ⟨S100000x16, .f32⟩
  | .local _ .vmem, ⟨0, _⟩ => ⟨S2000x128, .f32⟩
  | .local _ .vmem, ⟨1, _⟩ => ⟨S2000x128, .f32⟩
  | .local _ .vmem, ⟨2, _⟩ => ⟨S2000x1, .f32⟩
  | .local _ .vmem, ⟨3, _⟩ => ⟨S2000x1, .f32⟩
  | .local _ .vmem, ⟨4, _⟩ => ⟨S128x128, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x1, .f32⟩
  | .local _ .vmem, ⟨17, _⟩ => ⟨S2000x1, .f32⟩
  | .local _ .vmem, ⟨18, _⟩ => ⟨S128x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x128, .f32⟩
  | .local _ .vmem, ⟨31, _⟩ => ⟨S1x128, .f32⟩
  | .local _ .vmem, ⟨32, _⟩ => ⟨S2000x128, .f32⟩
  | .local _ .vmem, ⟨33, _⟩ => ⟨S2000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_3 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_c : Ref sig .tc := ⟨.hbm, 32, rfl⟩
abbrev main_v18 : Ref sig .tc := ⟨.hbm, 33, rfl⟩
abbrev main_v19 : Ref sig .tc := ⟨.hbm, 34, rfl⟩
abbrev main_c_4 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_5 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_c_6 : Ref sig .tc := ⟨.hbm, 47, rfl⟩
abbrev main_v30 : Ref sig .tc := ⟨.hbm, 48, rfl⟩
abbrev main_v31 : Ref sig .tc := ⟨.hbm, 49, rfl⟩
abbrev main_c_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_c_9 : Ref sig .tc := ⟨.hbm, 61, rfl⟩
abbrev main_call0_v0 : Ref sig .tc := ⟨.hbm, 62, rfl⟩
abbrev main_v41 : Ref sig .tc := ⟨.hbm, 63, rfl⟩
abbrev main_c_10 : Ref sig .tc := ⟨.hbm, 64, rfl⟩
abbrev main_call1_v0 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg1_1 : Ref sig .tc := ⟨.vmem, 17, rfl⟩
abbrev cc2_stg2_0 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg3_0 : Ref sig .tc := ⟨.vmem, 32, rfl⟩
abbrev cc4_stg3_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem1_1 : DmaSem sig := 17
abbrev cc2_sem2_0 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem3_0 : DmaSem sig := 32
abbrev cc4_sem3_1 : DmaSem sig := 33

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S128x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x128 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  shapeCasts_S100000_S100000x1 : S100000.ShapeCasts S100000x1
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S_S100000x128 : S_.BroadcastsInDim S100000x128 (![] : Fin 0 → Fin S100000x128.rank)
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  pads_S128x16_S128x128_000_01120 : S128x16.Pads (![0, 0] : Fin 2 → Nat) ![0, 112] ![0, 0] S128x128
  h_S_ : 0 < S_.numel
  pads_S16_S128_01120 : S16.Pads (![0] : Fin 1 → Nat) ![112] ![0] S128
  shapeCasts_S128x128_S128x128 : S128x128.ShapeCasts S128x128
  slices_S100000x128_S100000x16_0_0 : S100000x128.Slices ![0, 0] S100000x16
  scatter_S100000_S600000x1_S600000_n_0_0_1_wf : ScatterDims.WF S100000 S600000x1 S600000 [] [0] [0] 1
  dot_S2000x128_S128x128_S2000x128_1_0_0_1_n_n_wf : DotDims.WF S2000x128 S128x128 S2000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S100000x128.size a
  hwx0_0 : ∀ i : grid0.Coords, EltTy.bits .f32 = 32 ∨ (Rect.block (s := S100000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x1.size a ≤ S100000x1.size a
  hwx0_1 : ∀ i : grid0.Coords, EltTy.bits .f32 = 32 ∨ (Rect.block (s := S100000x1) S2000x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S100000x128.size a
  hwx1_3 : ∀ i : grid1.Coords, EltTy.bits .f32 = 32 ∨ (Rect.block (s := S100000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128x128.size a ≤ S128x128.size a
  hwx2_2 : ∀ i : grid2.Coords, EltTy.bits .f32 = 32 ∨ (Rect.block (s := S128x128) S128x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S100000x128.size a
  hwx2_3 : ∀ i : grid2.Coords, EltTy.bits .f32 = 32 ∨ (Rect.block (s := S100000x128) S2000x128.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S100000x1.size a
  hwx3_1 : ∀ i : grid3.Coords, EltTy.bits .f32 = 32 ∨ (Rect.block (s := S100000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S100000x128.size a
  hwx3_3 : ∀ i : grid3.Coords, EltTy.bits .f32 = 32 ∨ (Rect.block (s := S100000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S100000x128.size a
  hwx4_3 : ∀ i : grid4.Coords, EltTy.bits .f32 = 32 ∨ (Rect.block (s := S100000x128) S2000x128.size (cc4_transform_3 i) (hinb4_3 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S2000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v15) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v28) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v28) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v10) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg5) S128x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v29) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v39) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v16) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v40) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v40) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v41) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v43) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v44) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

class Facts : Prop extends Facts₀ where

variable [Facts]
-- ==== ReferenceIdeal.lean ====
abbrev S100000x128 : Shape := ⟨2, ![100000, 128]⟩
abbrev S600000 : Shape := ⟨1, ![600000]⟩
abbrev S128x128 : Shape := ⟨2, ![128, 128]⟩
abbrev S128 : Shape := ⟨1, ![128]⟩
abbrev S128x16 : Shape := ⟨2, ![128, 16]⟩
abbrev S16 : Shape := ⟨1, ![16]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩
abbrev S100000x16 : Shape := ⟨2, ![100000, 16]⟩
abbrev S1x16 : Shape := ⟨2, ![1, 16]⟩

abbrev nBuf : Space → Nat
  | .hbm => 105
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x16, .f32⟩
  | .hbm, ⟨8, _⟩ => ⟨S16, .f32⟩
  | .hbm, ⟨9, _⟩ => ⟨S_, .f32⟩
  | .hbm, ⟨10, _⟩ => ⟨S600000, .f32⟩
  | .hbm, ⟨11, _⟩ => ⟨S_, .f32⟩
  | .hbm, ⟨12, _⟩ => ⟨S100000, .f32⟩
  | .hbm, ⟨13, _⟩ => ⟨S600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S600000, .f32⟩
  | .hbm, ⟨20, _⟩ => ⟨S_, .f32⟩
  | .hbm, ⟨21, _⟩ => ⟨S100000, .f32⟩
  | .hbm, ⟨22, _⟩ => ⟨S600000x1, .i32⟩
  | .hbm, ⟨23, _⟩ => ⟨S100000, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S100000x128, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S600000, .i32⟩
  | .hbm, ⟨34, _⟩ => ⟨S600000, .i1⟩
  | .hbm, ⟨35, _⟩ => ⟨S_, .i32⟩
  | .hbm, ⟨36, _⟩ => ⟨S600000, .i32⟩
  | .hbm, ⟨37, _⟩ => ⟨S600000, .i32⟩
  | .hbm, ⟨38, _⟩ => ⟨S600000, .i32⟩
  | .hbm, ⟨39, _⟩ => ⟨S600000x1, .i32⟩
  | .hbm, ⟨40, _⟩ => ⟨S600000x128, .f32⟩
  | .hbm, ⟨41, _⟩ => ⟨S_, .f32⟩
  | .hbm, ⟨42, _⟩ => ⟨S100000x128, .f32⟩
  | .hbm, ⟨43, _⟩ => ⟨S600000x1, .i32⟩
  | .hbm, ⟨44, _⟩ => ⟨S100000x128, .f32⟩
  | .hbm, ⟨45, _⟩ => ⟨S100000, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S1x128, .f32⟩
  | .hbm, ⟨50, _⟩ => ⟨S100000x128, .f32⟩
  | .hbm, ⟨51, _⟩ => ⟨S100000x128, .f32⟩
  | .hbm, ⟨52, _⟩ => ⟨S_, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S600000, .f32⟩
  | .hbm, ⟨57, _⟩ => ⟨S_, .f32⟩
  | .hbm, ⟨58, _⟩ => ⟨S100000, .f32⟩
  | .hbm, ⟨59, _⟩ => ⟨S600000x1, .i32⟩
  | .hbm, ⟨60, _⟩ => ⟨S100000, .f32⟩
  | .hbm, ⟨61, _⟩ => ⟨S_, .f32⟩
  | .hbm, ⟨62, _⟩ => ⟨S100000, .f32⟩
  | .hbm, ⟨63, _⟩ => ⟨S100000, .f32⟩
  | .hbm, ⟨64, _⟩ => ⟨S_, .f32⟩
  | .hbm, ⟨65, _⟩ => ⟨S600000, .f32⟩
  | .hbm, ⟨66, _⟩ => ⟨S_, .f32⟩
  | .hbm, ⟨67, _⟩ => ⟨S100000, .f32⟩
  | .hbm, ⟨68, _⟩ => ⟨S600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000, .f32⟩
  | .hbm, ⟨74, _⟩ => ⟨S100000x1, .f32⟩
  | .hbm, ⟨75, _⟩ => ⟨S100000x128, .f32⟩
  | .hbm, ⟨76, _⟩ => ⟨S100000x128, .f32⟩
  | .hbm, ⟨77, _⟩ => ⟨S100000x128, .f32⟩
  | .hbm, ⟨78, _⟩ => ⟨S_, .i32⟩
  | .hbm, ⟨79, _⟩ => ⟨S600000, .i32⟩
  | .hbm, ⟨80, _⟩ => ⟨S600000, .i1⟩
  | .hbm, ⟨81, _⟩ => ⟨S_, .i32⟩
  | .hbm, ⟨82, _⟩ => ⟨S600000, .i32⟩
  | .hbm, ⟨83, _⟩ => ⟨S600000, .i32⟩
  | .hbm, ⟨84, _⟩ => ⟨S600000, .i32⟩
  | .hbm, ⟨85, _⟩ => ⟨S600000x1, .i32⟩
  | .hbm, ⟨86, _⟩ => ⟨S600000x128, .f32⟩
  | .hbm, ⟨87, _⟩ => ⟨S_, .f32⟩
  | .hbm, ⟨88, _⟩ => ⟨S100000x128, .f32⟩
  | .hbm, ⟨89, _⟩ => ⟨S600000x1, .i32⟩
  | .hbm, ⟨90, _⟩ => ⟨S100000x128, .f32⟩
  | .hbm, ⟨91, _⟩ => ⟨S100000, .f32⟩
  | .hbm, ⟨92, _⟩ => ⟨S100000x1, .f32⟩
  | .hbm, ⟨93, _⟩ => ⟨S100000x128, .f32⟩
  | .hbm, ⟨94, _⟩ => ⟨S100000x128, .f32⟩
  | .hbm, ⟨95, _⟩ => ⟨S1x128, .f32⟩
  | .hbm, ⟨96, _⟩ => ⟨S100000x128, .f32⟩
  | .hbm, ⟨97, _⟩ => ⟨S100000x128, .f32⟩
  | .hbm, ⟨98, _⟩ => ⟨S_, .f32⟩
  | .hbm, ⟨99, _⟩ => ⟨S100000x128, .f32⟩
  | .hbm, ⟨100, _⟩ => ⟨S100000x128, .f32⟩
  | .hbm, ⟨101, _⟩ => ⟨S100000x16, .f32⟩
  | .hbm, ⟨102, _⟩ => ⟨S1x16, .f32⟩
  | .hbm, ⟨103, _⟩ => ⟨S100000x16, .f32⟩
  | .hbm, ⟨104, _⟩ => ⟨S100000x16, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_cst_3 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_5 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst_6 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_call0_cst : Ref sig .tc := ⟨.hbm, 52, rfl⟩
abbrev main_call0_v0 : Ref sig .tc := ⟨.hbm, 53, rfl⟩
abbrev main_v34 : Ref sig .tc := ⟨.hbm, 54, rfl⟩
abbrev main_cst_7 : Ref sig .tc := ⟨.hbm, 55, rfl⟩
abbrev main_v35 : Ref sig .tc := ⟨.hbm, 56, rfl⟩
abbrev main_cst_8 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_cst_9 : Ref sig .tc := ⟨.hbm, 61, rfl⟩
abbrev main_v39 : Ref sig .tc := ⟨.hbm, 62, rfl⟩
abbrev main_v40 : Ref sig .tc := ⟨.hbm, 63, rfl⟩
abbrev main_cst_10 : Ref sig .tc := ⟨.hbm, 64, rfl⟩
abbrev main_v41 : Ref sig .tc := ⟨.hbm, 65, rfl⟩
abbrev main_cst_11 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_12 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_c_13 : Ref sig .tc := ⟨.hbm, 78, rfl⟩
abbrev main_v52 : Ref sig .tc := ⟨.hbm, 79, rfl⟩
abbrev main_v53 : Ref sig .tc := ⟨.hbm, 80, rfl⟩
abbrev main_c_14 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_15 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_call1_cst : Ref sig .tc := ⟨.hbm, 98, rfl⟩
abbrev main_call1_v0 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  scatter_S100000_S600000x1_S600000_n_0_0_1_wf : ScatterDims.WF S100000 S600000x1 S600000 [] [0] [0] 1
  dot_S100000x128_S128x128_S100000x128_1_0_0_1_n_n_wf : DotDims.WF S100000x128 S128x128 S100000x128 [1] [0] [0] [1] [] []
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x16_S100000x16_1_0_0_1_n_n_wf : DotDims.WF S100000x128 S128x16 S100000x16 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x16_S100000x16_1_0_0_1_n_n : DotDims S100000x128 S128x16 S100000x16 where
  lhsContracting := [1]
  rhsContracting := [0]
  lhsNonContracting := [0]
  rhsNonContracting := [1]
  lhsBatch := []
  rhsBatch := []
  wf := dot_S100000x128_S128x16_S100000x16_1_0_0_1_n_n_wf

class Facts : Prop extends Facts₀ where

variable [Facts]
-- ==== Proof.Carry.lean ====
/-
  What the buffers hold at the boundaries between the program's segments, for the buffers later segments read.

  The program is a chain of host stretches and kernel launches. A host stretch rewrites only the buffers its
  operations name as results, and a launch only its result array; every other buffer keeps what it held. So a buffer
  written once — an argument (never written), the per-node scale columns `rsqrt (max (degree, 1))` viewed as
  [100000, 1], the two bias rows viewed as [1, 128] — holds the same value at every later boundary. The lemmas
  `wK_<buffer>` say which value, boundary by boundary (boundary 1 is the first launch's entry, 2 its exit, 3 the
  second launch's entry, 4 its exit and the third launch's entry, 5 that launch's exit, 6 the fourth launch's entry,
  7 its exit). The scale columns are stated through the reference's own stage functions: the host operations that
  compute them are the same in both programs.
-/
import proofs.«104196_j62938450755768_1_alg».proof.Proof.Gen.KernelIdeal.Frame
import proofs.«104196_j62938450755768_1_alg».proof.Proof.Gen.ReferenceIdeal.Read
import Idealize.ShloMosaic.Lib.StableHlo.Run

set_option maxRecDepth 16384

noncomputable section

namespace Cert.KernelIdeal.Carry

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

theorem w1_main_arg0 : W1 m ρ c (Proc.devRef .tc main_arg0)
    = (m ((c : Thread nD τ).loc main_arg0)) := by
  show StableHlo.after hostOps0 (W0 m ρ c) (Proc.devRef .tc main_arg0) = _
  dsimp only [hostOps0]
  after_results <;> rfl

theorem w1_main_arg1 : W1 m ρ c (Proc.devRef .tc main_arg1)
    = (m ((c : Thread nD τ).loc main_arg1)) := by
  show StableHlo.after hostOps0 (W0 m ρ c) (Proc.devRef .tc main_arg1) = _
  dsimp only [hostOps0]
  after_results <;> rfl

theorem w2_main_arg1 : W2 m ρ c (Proc.devRef .tc main_arg1)
    = (m ((c : Thread nD τ).loc main_arg1)) :=
  (W2_of_ne m ρ c main_arg1 (by decide)).trans (w1_main_arg1 m ρ c)

theorem w3_main_arg1 : W3 m ρ c (Proc.devRef .tc main_arg1)
    = (m ((c : Thread nD τ).loc main_arg1)) :=
  (show StableHlo.after hostOps1 (W2 m ρ c) (Proc.devRef .tc main_arg1) = W2 m ρ c (Proc.devRef .tc main_arg1) by
    dsimp only [hostOps1]; after_results).trans (w2_main_arg1 m ρ c)

theorem w4_main_arg1 : W4 m ρ c (Proc.devRef .tc main_arg1)
    = (m ((c : Thread nD τ).loc main_arg1)) :=
  (W4_of_ne m ρ c main_arg1 (by decide)).trans (w3_main_arg1 m ρ c)

theorem w5_main_arg1 : W5 m ρ c (Proc.devRef .tc main_arg1)
    = (m ((c : Thread nD τ).loc main_arg1)) :=
  (W5_of_ne m ρ c main_arg1 (by decide)).trans (w4_main_arg1 m ρ c)

theorem w1_main_arg2 : W1 m ρ c (Proc.devRef .tc main_arg2)
    = (m ((c : Thread nD τ).loc main_arg2)) := by
  show StableHlo.after hostOps0 (W0 m ρ c) (Proc.devRef .tc main_arg2) = _
  dsimp only [hostOps0]
  after_results <;> rfl

theorem w2_main_arg2 : W2 m ρ c (Proc.devRef .tc main_arg2)
    = (m ((c : Thread nD τ).loc main_arg2)) :=
  (W2_of_ne m ρ c main_arg2 (by decide)).trans (w1_main_arg2 m ρ c)

theorem w3_main_arg2 : W3 m ρ c (Proc.devRef .tc main_arg2)
    = (m ((c : Thread nD τ).loc main_arg2)) :=
  (show StableHlo.after hostOps1 (W2 m ρ c) (Proc.devRef .tc main_arg2) = W2 m ρ c (Proc.devRef .tc main_arg2) by
    dsimp only [hostOps1]; after_results).trans (w2_main_arg2 m ρ c)

theorem w4_main_arg2 : W4 m ρ c (Proc.devRef .tc main_arg2)
    = (m ((c : Thread nD τ).loc main_arg2)) :=
  (W4_of_ne m ρ c main_arg2 (by decide)).trans (w3_main_arg2 m ρ c)

theorem w5_main_arg2 : W5 m ρ c (Proc.devRef .tc main_arg2)
    = (m ((c : Thread nD τ).loc main_arg2)) :=
  (W5_of_ne m ρ c main_arg2 (by decide)).trans (w4_main_arg2 m ρ c)

theorem w1_main_arg3 : W1 m ρ c (Proc.devRef .tc main_arg3)
    = (m ((c : Thread nD τ).loc main_arg3)) := by
  show StableHlo.after hostOps0 (W0 m ρ c) (Proc.devRef .tc main_arg3) = _
  dsimp only [hostOps0]
  after_results <;> rfl

theorem w1_main_arg5 : W1 m ρ c (Proc.devRef .tc main_arg5)
    = (m ((c : Thread nD τ).loc main_arg5)) := by
  show StableHlo.after hostOps0 (W0 m ρ c) (Proc.devRef .tc main_arg5) = _
  dsimp only [hostOps0]
  after_results <;> rfl

theorem w2_main_arg5 : W2 m ρ c (Proc.devRef .tc main_arg5)
    = (m ((c : Thread nD τ).loc main_arg5)) :=
  (W2_of_ne m ρ c main_arg5 (by decide)).trans (w1_main_arg5 m ρ c)

theorem w3_main_arg5 : W3 m ρ c (Proc.devRef .tc main_arg5)
    = (m ((c : Thread nD τ).loc main_arg5)) :=
  (show StableHlo.after hostOps1 (W2 m ρ c) (Proc.devRef .tc main_arg5) = W2 m ρ c (Proc.devRef .tc main_arg5) by
    dsimp only [hostOps1]; after_results).trans (w2_main_arg5 m ρ c)

theorem w4_main_arg5 : W4 m ρ c (Proc.devRef .tc main_arg5)
    = (m ((c : Thread nD τ).loc main_arg5)) :=
  (W4_of_ne m ρ c main_arg5 (by decide)).trans (w3_main_arg5 m ρ c)

theorem w1_main_arg7 : W1 m ρ c (Proc.devRef .tc main_arg7)
    = (m ((c : Thread nD τ).loc main_arg7)) := by
  show StableHlo.after hostOps0 (W0 m ρ c) (Proc.devRef .tc main_arg7) = _
  dsimp only [hostOps0]
  after_results <;> rfl

theorem w2_main_arg7 : W2 m ρ c (Proc.devRef .tc main_arg7)
    = (m ((c : Thread nD τ).loc main_arg7)) :=
  (W2_of_ne m ρ c main_arg7 (by decide)).trans (w1_main_arg7 m ρ c)

theorem w3_main_arg7 : W3 m ρ c (Proc.devRef .tc main_arg7)
    = (m ((c : Thread nD τ).loc main_arg7)) :=
  (show StableHlo.after hostOps1 (W2 m ρ c) (Proc.devRef .tc main_arg7) = W2 m ρ c (Proc.devRef .tc main_arg7) by
    dsimp only [hostOps1]; after_results).trans (w2_main_arg7 m ρ c)

theorem w4_main_arg7 : W4 m ρ c (Proc.devRef .tc main_arg7)
    = (m ((c : Thread nD τ).loc main_arg7)) :=
  (W4_of_ne m ρ c main_arg7 (by decide)).trans (w3_main_arg7 m ρ c)

theorem w5_main_arg7 : W5 m ρ c (Proc.devRef .tc main_arg7)
    = (m ((c : Thread nD τ).loc main_arg7)) :=
  (W5_of_ne m ρ c main_arg7 (by decide)).trans (w4_main_arg7 m ρ c)

theorem w6_main_arg7 : W6 m ρ c (Proc.devRef .tc main_arg7)
    = (m ((c : Thread nD τ).loc main_arg7)) :=
  (show StableHlo.after hostOps3 (W5 m ρ c) (Proc.devRef .tc main_arg7) = W5 m ρ c (Proc.devRef .tc main_arg7) by
    dsimp only [hostOps3]; after_results).trans (w5_main_arg7 m ρ c)

theorem w7_main_arg7 : W7 m ρ c (Proc.devRef .tc main_arg7)
    = (m ((c : Thread nD τ).loc main_arg7)) :=
  (W7_of_ne m ρ c main_arg7 (by decide)).trans (w6_main_arg7 m ρ c)

theorem w1_main_arg8 : W1 m ρ c (Proc.devRef .tc main_arg8)
    = (m ((c : Thread nD τ).loc main_arg8)) := by
  show StableHlo.after hostOps0 (W0 m ρ c) (Proc.devRef .tc main_arg8) = _
  dsimp only [hostOps0]
  after_results <;> rfl

theorem w2_main_arg8 : W2 m ρ c (Proc.devRef .tc main_arg8)
    = (m ((c : Thread nD τ).loc main_arg8)) :=
  (W2_of_ne m ρ c main_arg8 (by decide)).trans (w1_main_arg8 m ρ c)

theorem w3_main_arg8 : W3 m ρ c (Proc.devRef .tc main_arg8)
    = (m ((c : Thread nD τ).loc main_arg8)) :=
  (show StableHlo.after hostOps1 (W2 m ρ c) (Proc.devRef .tc main_arg8) = W2 m ρ c (Proc.devRef .tc main_arg8) by
    dsimp only [hostOps1]; after_results).trans (w2_main_arg8 m ρ c)

theorem w4_main_arg8 : W4 m ρ c (Proc.devRef .tc main_arg8)
    = (m ((c : Thread nD τ).loc main_arg8)) :=
  (W4_of_ne m ρ c main_arg8 (by decide)).trans (w3_main_arg8 m ρ c)

theorem w5_main_arg8 : W5 m ρ c (Proc.devRef .tc main_arg8)
    = (m ((c : Thread nD τ).loc main_arg8)) :=
  (W5_of_ne m ρ c main_arg8 (by decide)).trans (w4_main_arg8 m ρ c)

theorem w6_main_arg8 : W6 m ρ c (Proc.devRef .tc main_arg8)
    = (m ((c : Thread nD τ).loc main_arg8)) :=
  (show StableHlo.after hostOps3 (W5 m ρ c) (Proc.devRef .tc main_arg8) = W5 m ρ c (Proc.devRef .tc main_arg8) by
    dsimp only [hostOps3]; after_results).trans (w5_main_arg8 m ρ c)

theorem w7_main_arg8 : W7 m ρ c (Proc.devRef .tc main_arg8)
    = (m ((c : Thread nD τ).loc main_arg8)) :=
  (W7_of_ne m ρ c main_arg8 (by decide)).trans (w6_main_arg8 m ρ c)

theorem w1_main_v10 : W1 m ρ c (Proc.devRef .tc main_v10)
    = fun i => shapeCast S100000x1 (Cert.ReferenceIdeal.Read.val_main_v12 (F := Ideal) (m ((c : Thread nD τ).loc main_arg1))) shapeCasts_S100000_S100000x1 i := by
  show StableHlo.after hostOps0 (W0 m ρ c) (Proc.devRef .tc main_v10) = _
  dsimp only [hostOps0]
  after_results <;> rfl

theorem w2_main_v10 : W2 m ρ c (Proc.devRef .tc main_v10)
    = fun i => shapeCast S100000x1 (Cert.ReferenceIdeal.Read.val_main_v12 (F := Ideal) (m ((c : Thread nD τ).loc main_arg1))) shapeCasts_S100000_S100000x1 i :=
  (W2_arr m ρ c 1).trans (((dat0 (V1 m ρ) c).arrAt_in 1 rfl _).trans ((A_eq0 (V1 m ρ) c 1).trans (w1_main_v10 m ρ c)))

theorem w3_main_v10 : W3 m ρ c (Proc.devRef .tc main_v10)
    = fun i => shapeCast S100000x1 (Cert.ReferenceIdeal.Read.val_main_v12 (F := Ideal) (m ((c : Thread nD τ).loc main_arg1))) shapeCasts_S100000_S100000x1 i :=
  (show StableHlo.after hostOps1 (W2 m ρ c) (Proc.devRef .tc main_v10) = W2 m ρ c (Proc.devRef .tc main_v10) by
    dsimp only [hostOps1]; after_results).trans (w2_main_v10 m ρ c)

theorem w4_main_v10 : W4 m ρ c (Proc.devRef .tc main_v10)
    = fun i => shapeCast S100000x1 (Cert.ReferenceIdeal.Read.val_main_v12 (F := Ideal) (m ((c : Thread nD τ).loc main_arg1))) shapeCasts_S100000_S100000x1 i :=
  (W4_of_ne m ρ c main_v10 (by decide)).trans (w3_main_v10 m ρ c)

theorem w1_main_v14 : W1 m ρ c (Proc.devRef .tc main_v14)
    = fun i => shapeCast S100000x1 (Cert.ReferenceIdeal.Read.val_main_v27 (F := Ideal) (m ((c : Thread nD τ).loc main_arg2))) shapeCasts_S100000_S100000x1 i := by
  show StableHlo.after hostOps0 (W0 m ρ c) (Proc.devRef .tc main_v14) = _
  dsimp only [hostOps0]
  after_results <;> rfl

theorem w2_main_v14 : W2 m ρ c (Proc.devRef .tc main_v14)
    = fun i => shapeCast S100000x1 (Cert.ReferenceIdeal.Read.val_main_v27 (F := Ideal) (m ((c : Thread nD τ).loc main_arg2))) shapeCasts_S100000_S100000x1 i :=
  (W2_of_ne m ρ c main_v14 (by decide)).trans (w1_main_v14 m ρ c)

theorem w3_main_v14 : W3 m ρ c (Proc.devRef .tc main_v14)
    = fun i => shapeCast S100000x1 (Cert.ReferenceIdeal.Read.val_main_v27 (F := Ideal) (m ((c : Thread nD τ).loc main_arg2))) shapeCasts_S100000_S100000x1 i :=
  (show StableHlo.after hostOps1 (W2 m ρ c) (Proc.devRef .tc main_v14) = W2 m ρ c (Proc.devRef .tc main_v14) by
    dsimp only [hostOps1]; after_results).trans (w2_main_v14 m ρ c)

theorem w4_main_v14 : W4 m ρ c (Proc.devRef .tc main_v14)
    = fun i => shapeCast S100000x1 (Cert.ReferenceIdeal.Read.val_main_v27 (F := Ideal) (m ((c : Thread nD τ).loc main_arg2))) shapeCasts_S100000_S100000x1 i :=
  (W4_arr m ρ c 1).trans (((dat1 (V3 m ρ) c).arrAt_in 1 rfl _).trans ((A_eq1 (V3 m ρ) c 1).trans (w3_main_v14 m ρ c)))

theorem w5_main_v14 : W5 m ρ c (Proc.devRef .tc main_v14)
    = fun i => shapeCast S100000x1 (Cert.ReferenceIdeal.Read.val_main_v27 (F := Ideal) (m ((c : Thread nD τ).loc main_arg2))) shapeCasts_S100000_S100000x1 i :=
  (W5_of_ne m ρ c main_v14 (by decide)).trans (w4_main_v14 m ρ c)

theorem w6_main_v14 : W6 m ρ c (Proc.devRef .tc main_v14)
    = fun i => shapeCast S100000x1 (Cert.ReferenceIdeal.Read.val_main_v27 (F := Ideal) (m ((c : Thread nD τ).loc main_arg2))) shapeCasts_S100000_S100000x1 i :=
  (show StableHlo.after hostOps3 (W5 m ρ c) (Proc.devRef .tc main_v14) = W5 m ρ c (Proc.devRef .tc main_v14) by
    dsimp only [hostOps3]; after_results).trans (w5_main_v14 m ρ c)

theorem w1_main_v15 : W1 m ρ c (Proc.devRef .tc main_v15)
    = fun i => shapeCast S1x128 (m ((c : Thread nD τ).loc main_arg4)) shapeCasts_S128_S1x128 i := by
  show StableHlo.after hostOps0 (W0 m ρ c) (Proc.devRef .tc main_v15) = _
  dsimp only [hostOps0]
  after_results <;> rfl

theorem w2_main_v15 : W2 m ρ c (Proc.devRef .tc main_v15)
    = fun i => shapeCast S1x128 (m ((c : Thread nD τ).loc main_arg4)) shapeCasts_S128_S1x128 i :=
  (W2_of_ne m ρ c main_v15 (by decide)).trans (w1_main_v15 m ρ c)

theorem w3_main_v15 : W3 m ρ c (Proc.devRef .tc main_v15)
    = fun i => shapeCast S1x128 (m ((c : Thread nD τ).loc main_arg4)) shapeCasts_S128_S1x128 i :=
  (show StableHlo.after hostOps1 (W2 m ρ c) (Proc.devRef .tc main_v15) = W2 m ρ c (Proc.devRef .tc main_v15) by
    dsimp only [hostOps1]; after_results).trans (w2_main_v15 m ρ c)

theorem w1_main_v16 : W1 m ρ c (Proc.devRef .tc main_v16)
    = fun i => shapeCast S1x128 (m ((c : Thread nD τ).loc main_arg6)) shapeCasts_S128_S1x128 i := by
  show StableHlo.after hostOps0 (W0 m ρ c) (Proc.devRef .tc main_v16) = _
  dsimp only [hostOps0]
  after_results <;> rfl

theorem w2_main_v16 : W2 m ρ c (Proc.devRef .tc main_v16)
    = fun i => shapeCast S1x128 (m ((c : Thread nD τ).loc main_arg6)) shapeCasts_S128_S1x128 i :=
  (W2_of_ne m ρ c main_v16 (by decide)).trans (w1_main_v16 m ρ c)

theorem w3_main_v16 : W3 m ρ c (Proc.devRef .tc main_v16)
    = fun i => shapeCast S1x128 (m ((c : Thread nD τ).loc main_arg6)) shapeCasts_S128_S1x128 i :=
  (show StableHlo.after hostOps1 (W2 m ρ c) (Proc.devRef .tc main_v16) = W2 m ρ c (Proc.devRef .tc main_v16) by
    dsimp only [hostOps1]; after_results).trans (w2_main_v16 m ρ c)

theorem w4_main_v16 : W4 m ρ c (Proc.devRef .tc main_v16)
    = fun i => shapeCast S1x128 (m ((c : Thread nD τ).loc main_arg6)) shapeCasts_S128_S1x128 i :=
  (W4_of_ne m ρ c main_v16 (by decide)).trans (w3_main_v16 m ρ c)

theorem w5_main_v16 : W5 m ρ c (Proc.devRef .tc main_v16)
    = fun i => shapeCast S1x128 (m ((c : Thread nD τ).loc main_arg6)) shapeCasts_S128_S1x128 i :=
  (W5_of_ne m ρ c main_v16 (by decide)).trans (w4_main_v16 m ρ c)

theorem w6_main_v16 : W6 m ρ c (Proc.devRef .tc main_v16)
    = fun i => shapeCast S1x128 (m ((c : Thread nD τ).loc main_arg6)) shapeCasts_S128_S1x128 i :=
  (show StableHlo.after hostOps3 (W5 m ρ c) (Proc.devRef .tc main_v16) = W5 m ρ c (Proc.devRef .tc main_v16) by
    dsimp only [hostOps3]; after_results).trans (w5_main_v16 m ρ c)

end Cert.KernelIdeal.Carry

end
-- ==== Proof.Spec.lean ====
/-
  The three per-row computations of a two-layer graph convolution with a linear head, as functions of whole arrays.

  Every dense stage of the network acts on the rows of a node-feature matrix independently:
  • `scaleMul`: row `p` of `X` is scaled by the entry `(p, 0)` of a one-column matrix and multiplied by a
    128 × 128 weight matrix — entry `(p, g)` is `∑ k, (X (p, k) · col (p, 0)) · W (k, g)`;
  • `normBiasRelu`: entry `(p, q)` of `A` is scaled by `col (p, 0)`, shifted by `b (0, q)` and clamped below at zero;
  • `mulBias`: entry `(p, g)` is `(∑ k, H (p, k) · W (k, g)) + b (0, g)`.
  They are stated for any number of rows `a`, so the same function describes one block of rows and the whole matrix:
  a block of the result is the function of the corresponding block of the row-indexed operands.
-/
import Idealize.ShloMosaic.PureOps.Ideal
import Idealize.ShloMosaic.Lib.ValueIdx

noncomputable section

namespace Cert.Spec

open Idealize.ShloMosaic Idealize.ShloMosaic.ValueIdx

variable {a : ℕ}

/-- Entry `(p, g)` of the scaled rows times the weights. -/
def scaleMulAt (X : (⟨2, ![a, 128]⟩ : Shape).Idx → EReal) (col : (⟨2, ![a, 1]⟩ : Shape).Idx → EReal)
    (W : (⟨2, ![128, 128]⟩ : Shape).Idx → EReal) (p : Fin a) (g : Fin 128) : EReal :=
  ∑ k : Fin 128, (X (ix2 p k) * col (ix2 p (0 : Fin 1))) * W (ix2 k g)

/-- The scaled rows times the weights, as a whole array. -/
def scaleMul (X : (⟨2, ![a, 128]⟩ : Shape).Idx → EReal) (col : (⟨2, ![a, 1]⟩ : Shape).Idx → EReal)
    (W : (⟨2, ![128, 128]⟩ : Shape).Idx → EReal) : (⟨2, ![a, 128]⟩ : Shape).Idx → EReal :=
  fun j => scaleMulAt X col W (j 0) (j 1)

theorem scaleMul_apply (X : (⟨2, ![a, 128]⟩ : Shape).Idx → EReal) (col : (⟨2, ![a, 1]⟩ : Shape).Idx → EReal)
    (W : (⟨2, ![128, 128]⟩ : Shape).Idx → EReal) (p : Fin a) (g : Fin 128) :
    scaleMul X col W (ix2 p g) = scaleMulAt X col W p g := rfl

/-- Entry `(p, q)` of the rows scaled, shifted and clamped below at zero (the zero is the f32 pattern of +0). -/
def normBiasReluAt (A : (⟨2, ![a, 128]⟩ : Shape).Idx → EReal) (col : (⟨2, ![a, 1]⟩ : Shape).Idx → EReal)
    (b : (⟨2, ![1, 128]⟩ : Shape).Idx → EReal) (p : Fin a) (q : Fin 128) : EReal :=
  max (A (ix2 p q) * col (ix2 p (0 : Fin 1)) + b (ix2 (0 : Fin 1) q)) (Ideal.ofBits .f32 0x00000000#32)

/-- The rows scaled, shifted and clamped, as a whole array. -/
def normBiasRelu (A : (⟨2, ![a, 128]⟩ : Shape).Idx → EReal) (col : (⟨2, ![a, 1]⟩ : Shape).Idx → EReal)
    (b : (⟨2, ![1, 128]⟩ : Shape).Idx → EReal) : (⟨2, ![a, 128]⟩ : Shape).Idx → EReal :=
  fun j => normBiasReluAt A col b (j 0) (j 1)

theorem normBiasRelu_apply (A : (⟨2, ![a, 128]⟩ : Shape).Idx → EReal) (col : (⟨2, ![a, 1]⟩ : Shape).Idx → EReal)
    (b : (⟨2, ![1, 128]⟩ : Shape).Idx → EReal) (p : Fin a) (q : Fin 128) :
    normBiasRelu A col b (ix2 p q) = normBiasReluAt A col b p q := rfl

/-- Entry `(p, g)` of the rows times the weights plus a row of biases. -/
def mulBiasAt (H : (⟨2, ![a, 128]⟩ : Shape).Idx → EReal) (W : (⟨2, ![128, 128]⟩ : Shape).Idx → EReal)
    (b : (⟨2, ![1, 128]⟩ : Shape).Idx → EReal) (p : Fin a) (g : Fin 128) : EReal :=
  (∑ k : Fin 128, H (ix2 p k) * W (ix2 k g)) + b (ix2 (0 : Fin 1) g)

/-- The rows times the weights plus the biases, as a whole array. -/
def mulBias (H : (⟨2, ![a, 128]⟩ : Shape).Idx → EReal) (W : (⟨2, ![128, 128]⟩ : Shape).Idx → EReal)
    (b : (⟨2, ![1, 128]⟩ : Shape).Idx → EReal) : (⟨2, ![a, 128]⟩ : Shape).Idx → EReal :=
  fun j => mulBiasAt H W b (j 0) (j 1)

theorem mulBias_apply (H : (⟨2, ![a, 128]⟩ : Shape).Idx → EReal) (W : (⟨2, ![128, 128]⟩ : Shape).Idx → EReal)
    (b : (⟨2, ![1, 128]⟩ : Shape).Idx → EReal) (p : Fin a) (g : Fin 128) :
    mulBias H W b (ix2 p g) = mulBiasAt H W b p g := rfl

end Cert.Spec

end
-- ==== Proof.LibPlainDot.lean ====
/-
  A plain two-dimensional contraction read at an output index, over the extended reals.

  For the dimension numbers "contract the left operand's axis 1 with the right operand's axis 0, no batch axis"
  (an [M,K] array times a [K,N] array), entry (p, g) of the product is the sum over k < K of the left operand at
  (p, k) times the right operand at (k, g). This holds for the host's dot_general and for a matrix unit's product
  into a zero accumulator alike: at the ideal instance neither rounds, and the order of a finite sum is immaterial.
  The statements are general in the three extents, so one file serves every product of this form in a program.
-/
import Idealize.ShloMosaic.PureOps.Ideal.Laws
import Idealize.ShloMosaic.Lib.ValueIdx

noncomputable section

namespace Cert.PlainDot

open Idealize.ShloMosaic Idealize.ShloMosaic.ValueIdx

variable (M K N : ℕ)

/-- Axis 0 of the left operand's index is the output's row. -/
theorem lhs_row (j : (⟨2, ![M, N]⟩ : Shape).Idx) (q : (DotDims.plain M K N).contr.Idx) :
    ((DotDims.plain M K N).lhsIdx j q 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- Axis 1 of the left operand's index is the contraction position. -/
theorem lhs_contr (j : (⟨2, ![M, N]⟩ : Shape).Idx) (q : (DotDims.plain M K N).contr.Idx) :
    ((DotDims.plain M K N).lhsIdx j q 1).val = (q ⟨0, Nat.one_pos⟩).val :=
  (DotDims.plain M K N).lhsIdx_val_of_single rfl j q

/-- Axis 0 of the right operand's index is the contraction position. -/
theorem rhs_contr (j : (⟨2, ![M, N]⟩ : Shape).Idx) (q : (DotDims.plain M K N).contr.Idx) :
    ((DotDims.plain M K N).rhsIdx j q 0).val = (q ⟨0, Nat.one_pos⟩).val :=
  (DotDims.plain M K N).rhsIdx_val_of_single rfl j q

/-- Axis 1 of the right operand's index is the output's column. -/
theorem rhs_col (j : (⟨2, ![M, N]⟩ : Shape).Idx) (q : (DotDims.plain M K N).contr.Idx) :
    ((DotDims.plain M K N).rhsIdx j q 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction's sum over its one-axis index shape is the sum over k < K of row entry times column entry. -/
theorem sum_eq (l : (⟨2, ![M, K]⟩ : Shape).Idx → EReal) (r : (⟨2, ![K, N]⟩ : Shape).Idx → EReal) (p : Fin M) (g : Fin N) :
    ∑ q : (DotDims.plain M K N).contr.Idx,
        l ((DotDims.plain M K N).lhsIdx (ix2 p g) q) * r ((DotDims.plain M K N).rhsIdx (ix2 p g) q)
      = ∑ k : Fin K, l (ix2 p k) * r (ix2 k g) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p g) ((contrEquiv1 (DotDims.plain M K N) K rfl rfl).symm k) = ix2 p k :=
    funext fun a => Fin.ext (by
      match a with
      | ⟨0, _⟩ => exact lhs_row M K N _ _
      | ⟨1, _⟩ => exact (lhs_contr M K N _ _).trans hk)
  have er : (DotDims.plain M K N).rhsIdx (ix2 p g) ((contrEquiv1 (DotDims.plain M K N) K rfl rfl).symm k) = ix2 k g :=
    funext fun a => Fin.ext (by
      match a with
      | ⟨0, _⟩ => exact (rhs_contr M K N _ _).trans hk
      | ⟨1, _⟩ => exact rhs_col M K N _ _)
  rw [el, er]

variable {M K N}

/-- The host's dot_general with these dimension numbers, at entry (p, g). -/
theorem hostDot_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    Host.dotGeneral (F := Ideal) d none l r (ix2 p g) = ∑ k : Fin K, l (ix2 p k) * r (ix2 k g) := by
  subst hd
  simp only [Host.dotGeneral]
  rw [Ideal.dotGeneral_apply]
  exact sum_eq M K N l r p g

/-- A matrix unit's product with these dimension numbers into the zero accumulator, at entry (p, g). -/
theorem matmul_zero_apply {φ₁ φ₂ : FTy} (d : DotDims ⟨2, ![M, K]⟩ ⟨2, ![K, N]⟩ ⟨2, ![M, N]⟩) (hd : d = DotDims.plain M K N)
    (l : FVec Ideal ⟨2, ![M, K]⟩ φ₁) (r : FVec Ideal ⟨2, ![K, N]⟩ φ₂) (p : Fin M) (g : Fin N) :
    matmul (F := Ideal) d none l r (constant ⟨2, ![M, N]⟩ .f32 0x00000000#32) (ix2 p g)
      = ∑ k : Fin K, l (ix2 p k) * r (ix2 k g) := by
  subst hd
  simp only [matmul]
  rw [Ideal.matmul_constant_zero_apply]
  exact sum_eq M K N l r p g

end Cert.PlainDot

end
-- ==== Proof.LibKeepdims.lean ====
/-
  Column layouts and a lane sum read at an index.

  A sum over the last axis that keeps its dimension leaves a column: the [a] vector of row sums viewed as [a, 1],
  then spread along the rows of an [a, b] array. Read at `(p, c)` that array holds the sum of row `p`, whatever the
  column `c`. The lemmas here say so one layout step at a time, for every extent:
  • `shapeCast_a_a1_apply`: a vector [a] viewed as a column [a, 1] reads, at `(p, 0)`, the vector at `p`;
  • `broadcastTo_a1_ab_apply`: a column [a, 1] spread to [a, b] reads, at `(p, c)`, the column at `(p, 0)`;
  • `laneSum_apply`: over the extended reals, the sum of an [a, b] array along its last axis reads, at `p`, the
    finite sum over `k < b` of the array at `(p, k)`.
  Together with the library's row forms ([a] viewed as [1, a], a row [1, b] spread to [a, b]) these read every
  `sum(axis = -1, keepdims = True)` a kernel body broadcasts back over its block.
-/
import Idealize.ShloMosaic.Lib.Pipeline.Value
import Idealize.ShloMosaic.Lib.ValueIdx
import Idealize.ShloMosaic.PureOps.Ideal.Laws

noncomputable section

namespace Cert.Lib.Keepdims

open Idealize.ShloMosaic Idealize.ShloMosaic.ValueIdx

variable {α : Type}

/-- A vector [a] viewed as a column [a, 1]: entry `(p, u)` of the column is entry `p` of the vector (row-major
    position `p · 1 + 0 = p`). -/
theorem shapeCast_a_a1_apply {a : ℕ} (x : (⟨1, ![a]⟩ : Shape).Idx → α) (h : (⟨1, ![a]⟩ : Shape).ShapeCasts ⟨2, ![a, 1]⟩)
    (p : Fin a) (u : Fin 1) : shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column [a, 1] spread along the rows of an [a, b] array: entry `(p, c)` is the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Over the extended reals the sum of an [a, b] array along its last axis, read at row `p`, is `∑ k < b` of the
    array at `(p, k)`: the reduced index with the summed coordinate put back is `(p, k)`. -/
theorem laneSum_apply {a b : ℕ} {φ : FTy} (v : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ v acc h hφ hacc (ix1 p) = ∑ k : Fin b, v (ix2 p k) :=
  (Ideal.multiReduction_add_single v acc h hφ hacc (ix1 p)).trans
    (Finset.sum_congr rfl fun k _ => congrArg v (funext fun d => Fin.ext (by
      match d with
      | ⟨0, _⟩ => rfl
      | ⟨1, _⟩ => rfl)))

end Cert.Lib.Keepdims

end
-- ==== Proof.LibBroadcastInDim.lean ====
/-
  Columns and rows set and spread by `broadcast_in_dim`, read at an index.

  A host program spreads a per-row scale over a matrix in two steps: the vector [a] is set as a column [a, 1]
  (`dims = [0]`), and the column is spread along the rows of an [a, b] array (`dims = [0, 1]`).  A per-column vector
  goes the other way round: [b] set as a row [1, b] (`dims = [1]`), the row spread down the rows of [a, b]
  (`dims = [0, 1]`).  Read at `(p, q)` the first array holds the vector's entry `p`, the second the vector's entry `q`.
  One lemma per step, for every extent (an axis of extent one is read at `0`, which is also its only index):
  • `vec_as_col`: [a] → [a, 1] at `(p, u)` is the vector at `p`;
  • `col_spread`: [a, 1] → [a, b] at `(p, q)` is the column at `(p, 0)`;
  • `vec_as_row`: [b] → [1, b] at `(u, q)` is the vector at `q`;
  • `row_spread`: [1, b] → [a, b] at `(p, q)` is the row at `(0, q)`.
-/
import Idealize.ShloMosaic.Lib.Pipeline.Value
import Idealize.ShloMosaic.Lib.ValueIdx

noncomputable section

namespace Cert.Lib.InDim

open Idealize.ShloMosaic Idealize.ShloMosaic.ValueIdx

variable {α : Type}

/-- A vector [a] set as a column [a, 1]: entry `(p, u)` is the vector's entry `p`. -/
theorem vec_as_col {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- A column [a, 1] spread along the rows of an [a, b] array: entry `(p, q)` is the column's entry in row `p`. -/
theorem col_spread {a b : ℕ} (x : (⟨2, ![a, 1]⟩ : Shape).Idx → α)
    (h : (⟨2, ![a, 1]⟩ : Shape).BroadcastsInDim ⟨2, ![a, b]⟩ ![0, 1]) (p : Fin a) (q : Fin b) :
    broadcastInDim ⟨2, ![a, b]⟩ ![0, 1] h x (ix2 p q) = x (ix2 p (0 : Fin 1)) := by
  refine broadcastInDim_apply _ h x (ix2 p q) (ix2 p (0 : Fin 1)) fun ax => ?_
  match ax with
  | ⟨0, _⟩ =>
    show p.val = if a = 1 then 0 else p.val
    split
    · have := p.isLt; omega
    · rfl
  | ⟨1, _⟩ => rfl

/-- A vector [b] set as a row [1, b]: entry `(u, q)` is the vector's entry `q`. -/
theorem vec_as_row {b : ℕ} (x : (⟨1, ![b]⟩ : Shape).Idx → α)
    (h : (⟨1, ![b]⟩ : Shape).BroadcastsInDim ⟨2, ![1, b]⟩ ![1]) (u : Fin 1) (q : Fin b) :
    broadcastInDim ⟨2, ![1, b]⟩ ![1] h x (ix2 u q) = x (ix1 q) := by
  refine broadcastInDim_apply _ h x (ix2 u q) (ix1 q) fun ax => ?_
  match ax with
  | ⟨0, _⟩ =>
    show q.val = if b = 1 then 0 else q.val
    split
    · have := q.isLt; omega
    · rfl

/-- A row [1, b] spread down the rows of an [a, b] array: entry `(p, q)` is the row's entry in column `q`. -/
theorem row_spread {a b : ℕ} (x : (⟨2, ![1, b]⟩ : Shape).Idx → α)
    (h : (⟨2, ![1, b]⟩ : Shape).BroadcastsInDim ⟨2, ![a, b]⟩ ![0, 1]) (p : Fin a) (q : Fin b) :
    broadcastInDim ⟨2, ![a, b]⟩ ![0, 1] h x (ix2 p q) = x (ix2 (0 : Fin 1) q) := by
  refine broadcastInDim_apply _ h x (ix2 p q) (ix2 (0 : Fin 1) q) fun ax => ?_
  match ax with
  | ⟨0, _⟩ => rfl
  | ⟨1, _⟩ =>
    show q.val = if b = 1 then 0 else q.val
    split
    · have := q.isLt; omega
    · rfl

end Cert.Lib.InDim

end
-- ==== Proof.LibPadSlice.lean ====
/-
  Zero-extended columns and entries, read back inside the original extent.

  A matrix [K, n] padded on the right with `hi` further columns (no padding in front, none between entries) is a
  matrix [K, m]; at a column `g' < n` it still holds the original entry, whatever the padding value is. The same
  for a vector [n] padded at its end to [m]. Together with a slice that keeps the first `n` columns these say that
  widening an operand with padding columns and cutting the result back to the first `n` columns never reads the
  padding value. One lemma per layout, for every extent:
  • `pad_right_cols_apply`: [K, n] padded to [K, m] at `(k, g')` with `g' = g < n` is the matrix at `(k, g)`;
  • `pad_end_vec_apply`: [n] padded to [m] at `g'` with `g' = g < n` is the vector at `g`.
-/
import Idealize.ShloMosaic.Lib.KernelVsHost
import Idealize.ShloMosaic.Lib.ValueIdx

noncomputable section

namespace Cert.Lib.PadSlice

open Idealize.ShloMosaic Idealize.ShloMosaic.ValueIdx

variable {α : Type}

/-- A matrix [K, n] padded on the right to [K, m]: entry `(k, g')` with `g'` equal to a column `g` of the
    original is the original's entry `(k, g)` (row `k = 0 + k · 1`, column `g' = 0 + g · 1`). -/
theorem pad_right_cols_apply {K n m : ℕ} (hi : ℕ) (x : (⟨2, ![K, n]⟩ : Shape).Idx → α) {u : Shape} (v : u.Idx → α)
    (hp : (⟨2, ![K, n]⟩ : Shape).Pads (![0, 0] : Fin 2 → ℕ) ![0, hi] ![0, 0] ⟨2, ![K, m]⟩) (hu : 0 < u.numel)
    (k : Fin K) (g : Fin n) (g' : Fin m) (hg : g'.val = g.val) :
    pad ⟨2, ![K, m]⟩ ![0, 0] ![0, hi] ![0, 0] x v hp hu (ix2 k g') = x (ix2 k g) :=
  pad_apply_of_inside _ _ _ x v hp hu (ix2 k g') (ix2 k g) (fun a => by
    match a with
    | ⟨0, _⟩ => show k.val = 0 + k.val * (0 + 1); omega
    | ⟨1, _⟩ => show g'.val = 0 + g.val * (0 + 1); omega)

/-- A vector [n] padded at its end to [m]: entry `g'` equal to a position `g` of the original is the original's
    entry `g` (position `g' = 0 + g · 1`). -/
theorem pad_end_vec_apply {n m : ℕ} (hi : ℕ) (x : (⟨1, ![n]⟩ : Shape).Idx → α) {u : Shape} (v : u.Idx → α)
    (hp : (⟨1, ![n]⟩ : Shape).Pads (![0] : Fin 1 → ℕ) ![hi] ![0] ⟨1, ![m]⟩) (hu : 0 < u.numel)
    (g : Fin n) (g' : Fin m) (hg : g'.val = g.val) :
    pad ⟨1, ![m]⟩ ![0] ![hi] ![0] x v hp hu (ix1 g') = x (ix1 g) :=
  pad_apply_of_inside _ _ _ x v hp hu (ix1 g') (ix1 g) (fun a => by
    match a with
    | ⟨0, _⟩ => show g'.val = 0 + g.val * (0 + 1); omega)

end Cert.Lib.PadSlice

end
-- ==== Proof.RefStages.lean ====
/-
  The reference's three dense stages, each as the specification's per-row computation on the whole matrix.

  The reference spreads a per-row scale over a matrix by setting the vector [100000] as a column [100000, 1] and the
  column along the rows of [100000, 128]; it spreads a per-column bias by setting [128] as a row [1, 128] and the
  row down the rows. Read entry by entry these are the vector's entry `p` and the bias's entry `q`, which is also
  what the row-major views [100000] → [100000, 1] and [128] → [1, 128] hold at `(p, 0)` and `(0, q)`. So
  • the scaled product is `scaleMul` of the matrix, the vector viewed as a column, and the weights;
  • the scaled, shifted and clamped matrix is `normBiasRelu` of the matrix, the column view and the row view;
  • the head, a product with 16 columns of weights plus 16 biases, is the first 16 columns of `mulBias` applied to
    the weights and biases widened to 128 columns: for `g < 16` the widened weights at `(k, g)` and the widened bias
    at `g` are the original entries, so the padding value is never read.
  Each is an equality of whole arrays, proved entry by entry; the layout facts are hypotheses, so any proof of them fits.
-/
import proofs.«104196_j62938450755768_1_alg».proof.Proof.Gen.ReferenceIdeal.Read
import proofs.«104196_j62938450755768_1_alg».proof.Proof.Spec
import proofs.«104196_j62938450755768_1_alg».proof.Proof.LibPlainDot
import proofs.«104196_j62938450755768_1_alg».proof.Proof.LibKeepdims
import proofs.«104196_j62938450755768_1_alg».proof.Proof.LibBroadcastInDim
import proofs.«104196_j62938450755768_1_alg».proof.Proof.LibPadSlice
import Idealize.ShloMosaic.Lib.ValueIdx
import Idealize.ShloMosaic.Lib.Pipeline.Value
import Idealize.ShloMosaic.Lib.ValueLayout
import Idealize.ShloMosaic.PureOps.Ideal.Laws

noncomputable section

namespace Cert.ReferenceIdeal.Bridge

open Cert.ReferenceIdeal Cert.ReferenceIdeal.Gen Idealize.ShloMosaic Idealize.ShloMosaic.ValueIdx

/-- A vector [100000] set as a column and spread along the rows of [100000, 128] holds at `(p, c)` what the
    row-major column view of the vector holds at `(p, 0)`: the vector's entry `p`. -/
theorem scale_at {α : Type} (vec : S100000.Idx → α) (hc : S100000.ShapeCasts S100000x1) (p : Fin 100000) (c : Fin 128) :
    broadcastInDim S100000x128 ![0, 1] bcast_S100000x1_S100000x128_0_1
        (broadcastInDim S100000x1 ![0] bcast_S100000_S100000x1_0 vec) (ix2 p c)
      = shapeCast S100000x1 vec hc (ix2 p (0 : Fin 1)) :=
  ((Cert.Lib.InDim.col_spread _ bcast_S100000x1_S100000x128_0_1 p c).trans
    (Cert.Lib.InDim.vec_as_col vec bcast_S100000_S100000x1_0 p (0 : Fin 1))).trans
    (Cert.Lib.Keepdims.shapeCast_a_a1_apply vec hc p (0 : Fin 1)).symm

/-- A bias [128] set as a row and spread down the rows of [100000, 128] holds at `(p, q)` what the row-major row
    view of the bias holds at `(0, q)`: the bias's entry `q`. -/
theorem bias_at {α : Type} (bvec : S128.Idx → α) (hb : S128.ShapeCasts S1x128) (p : Fin 100000) (q : Fin 128) :
    broadcastInDim S100000x128 ![0, 1] bcast_S1x128_S100000x128_0_1
        (broadcastInDim S1x128 ![1] bcast_S128_S1x128_1 bvec) (ix2 p q)
      = shapeCast S1x128 bvec hb (ix2 (0 : Fin 1) q) :=
  ((Cert.Lib.InDim.row_spread _ bcast_S1x128_S100000x128_0_1 p q).trans
    (Cert.Lib.InDim.vec_as_row bvec bcast_S128_S1x128_1 (0 : Fin 1) q)).trans
    (shapeCast_a_1a_apply bvec hb (0 : Fin 1) q).symm

/-- The reference's scaled product is `scaleMul` of the matrix, the scale viewed as a column, and the weights. -/
theorem ref_scaleMul (X : (⟨S100000x128, .f32⟩ : BufTy).Contents (Elt Ideal)) (vec : (⟨S100000, .f32⟩ : BufTy).Contents (Elt Ideal))
    (W : (⟨S128x128, .f32⟩ : BufTy).Contents (Elt Ideal)) (hc : S100000.ShapeCasts S100000x1) :
    Host.dotGeneral (F := Ideal) (φ₁ := .f32) (φ₂ := .f32) dot_S100000x128_S128x128_S100000x128_1_0_0_1_n_n none
        (mulf (φ := .f32) X (broadcastInDim S100000x128 ![0, 1] bcast_S100000x1_S100000x128_0_1
          (broadcastInDim S100000x1 ![0] bcast_S100000_S100000x1_0 vec))) W
      = Cert.Spec.scaleMul (a := 100000) X (shapeCast S100000x1 vec hc) W := by
  funext j
  obtain ⟨p, g, rfl⟩ : ∃ (p : Fin 100000) (g : Fin 128), j = ix2 p g := ⟨j 0, j 1, eq_ix2 j⟩
  rw [Cert.Spec.scaleMul_apply]
  unfold Cert.Spec.scaleMulAt
  refine (Cert.PlainDot.hostDot_apply dot_S100000x128_S128x128_S100000x128_1_0_0_1_n_n rfl _ W p g).trans
    (Finset.sum_congr rfl fun k _ => ?_)
  exact congrArg (fun y => (X (ix2 p k) * y) * W (ix2 k g)) (scale_at vec hc p k)

/-- The reference's scaled, shifted and clamped matrix is `normBiasRelu` of the matrix, the scale viewed as a
    column, and the bias viewed as a row. -/
theorem ref_normBiasRelu (A : (⟨S100000x128, .f32⟩ : BufTy).Contents (Elt Ideal)) (vec : (⟨S100000, .f32⟩ : BufTy).Contents (Elt Ideal))
    (bvec : (⟨S128, .f32⟩ : BufTy).Contents (Elt Ideal)) (hc : S100000.ShapeCasts S100000x1) (hb : S128.ShapeCasts S1x128) :
    maximumf (φ := .f32)
        (addf (φ := .f32)
          (mulf (φ := .f32) A (broadcastInDim S100000x128 ![0, 1] bcast_S100000x1_S100000x128_0_1
            (broadcastInDim S100000x1 ![0] bcast_S100000_S100000x1_0 vec)))
          (broadcastInDim S100000x128 ![0, 1] bcast_S1x128_S100000x128_0_1 (broadcastInDim S1x128 ![1] bcast_S128_S1x128_1 bvec)))
        (broadcastInDim S100000x128 ![] bcast_S_S100000x128 (constant (F := Ideal) S_ .f32 0x00000000#32))
      = Cert.Spec.normBiasRelu (a := 100000) A (shapeCast S100000x1 vec hc) (shapeCast S1x128 bvec hb) := by
  funext j
  obtain ⟨p, q, rfl⟩ : ∃ (p : Fin 100000) (q : Fin 128), j = ix2 p q := ⟨j 0, j 1, eq_ix2 j⟩
  rw [Cert.Spec.normBiasRelu_apply]
  unfold Cert.Spec.normBiasReluAt
  have hzero : broadcastInDim S100000x128 ![] bcast_S_S100000x128 (constant (F := Ideal) S_ .f32 0x00000000#32) (ix2 p q)
      = Ideal.ofBits .f32 0x00000000#32 :=
    broadcastInDim_apply _ bcast_S_S100000x128 _ (ix2 p q) ix0 (fun a => a.elim0)
  exact congrArg₂ (fun y w => max y w)
    (congrArg₂ (fun y w => A (ix2 p q) * y + w) (scale_at vec hc p q) (bias_at bvec hb p q)) hzero

/-- The reference's head is the first 16 columns of `mulBias` applied to the head's weights and biases widened
    to 128 columns with any padding value. -/
theorem ref_head (H : (⟨S100000x128, .f32⟩ : BufTy).Contents (Elt Ideal)) (Wc : (⟨S128x16, .f32⟩ : BufTy).Contents (Elt Ideal))
    (bc : (⟨S16, .f32⟩ : BufTy).Contents (Elt Ideal)) (z : (⟨S_, .f32⟩ : BufTy).Contents (Elt Ideal))
    (hp : S128x16.Pads (![0, 0] : Fin 2 → ℕ) ![0, 112] ![0, 0] S128x128) (hz : 0 < S_.numel)
    (hp' : S16.Pads (![0] : Fin 1 → ℕ) ![112] ![0] S128) (hb : S128.ShapeCasts S1x128)
    (hs : S100000x128.Slices ![0, 0] S100000x16) :
    addf (φ := .f32) (Host.dotGeneral (F := Ideal) (φ₁ := .f32) (φ₂ := .f32) dot_S100000x128_S128x16_S100000x16_1_0_0_1_n_n none H Wc)
        (broadcastInDim S100000x16 ![0, 1] bcast_S1x16_S100000x16_0_1 (broadcastInDim S1x16 ![1] bcast_S16_S1x16_1 bc))
      = extractStridedSlice S100000x16 ![0, 0]
          (Cert.Spec.mulBias (a := 100000) H (pad S128x128 ![0, 0] ![0, 112] ![0, 0] Wc z hp hz)
            (shapeCast S1x128 (pad S128 ![0] ![112] ![0] bc z hp' hz) hb)) hs := by
  funext j
  obtain ⟨p, g, rfl⟩ : ∃ (p : Fin 100000) (g : Fin 16), j = ix2 p g := ⟨j 0, j 1, eq_ix2 j⟩
  have hg : g.val < 128 := by have := g.isLt; omega
  refine Eq.trans ?_ (slice2_axis1_apply 0 _ hs p g (⟨g.val, hg⟩ : Fin 128) (Nat.zero_add _).symm).symm
  rw [Cert.Spec.mulBias_apply]
  unfold Cert.Spec.mulBiasAt
  refine congrArg₂ (fun y w => y + w) ?_ ?_
  · refine (Cert.PlainDot.hostDot_apply dot_S100000x128_S128x16_S100000x16_1_0_0_1_n_n rfl H Wc p g).trans
      (Finset.sum_congr rfl fun k _ => ?_)
    exact congrArg (fun y => H (ix2 p k) * y)
      (Cert.Lib.PadSlice.pad_right_cols_apply 112 Wc z hp hz k g (⟨g.val, hg⟩ : Fin 128) rfl).symm
  · exact ((Cert.Lib.InDim.row_spread _ bcast_S1x16_S100000x16_0_1 p g).trans
        (Cert.Lib.InDim.vec_as_row bc bcast_S16_S1x16_1 (0 : Fin 1) g)).trans
      ((shapeCast_a_1a_apply _ hb (0 : Fin 1) (⟨g.val, hg⟩ : Fin 128)).trans
        (Cert.Lib.PadSlice.pad_end_vec_apply 112 bc z hp' hz g (⟨g.val, hg⟩ : Fin 128) rfl)).symm

end Cert.ReferenceIdeal.Bridge

end
-- ==== Proof.SpecBlocks.lean ====
/-
  The row-wise stages read block by block.

  Each stage of `Spec` computes entry `(r, g)` of its result from row `r` of the row-indexed operands and from the
  whole of the small operands (weights, biases). So if a block `Xb`, `colb` of the row-indexed operands holds at its
  row `p` what the whole operands hold at row `r`, and the small operands agree entry by entry, then the stage of the
  block at `(p, g')` is the stage of the whole at `(r, g)`. These are the congruences that carry a blockwise result
  to the whole array.
-/
import proofs.«104196_j62938450755768_1_alg».proof.Proof.Spec

noncomputable section

namespace Cert.Spec

open Idealize.ShloMosaic Idealize.ShloMosaic.ValueIdx

variable {a b : ℕ}

theorem scaleMulAt_congr {X : (⟨2, ![a, 128]⟩ : Shape).Idx → EReal} {col : (⟨2, ![a, 1]⟩ : Shape).Idx → EReal}
    {W : (⟨2, ![128, 128]⟩ : Shape).Idx → EReal} {Xb : (⟨2, ![b, 128]⟩ : Shape).Idx → EReal}
    {colb : (⟨2, ![b, 1]⟩ : Shape).Idx → EReal} {Wb : (⟨2, ![128, 128]⟩ : Shape).Idx → EReal}
    {r : Fin a} {p : Fin b} {g g' : Fin 128}
    (hX : ∀ k : Fin 128, Xb (ix2 p k) = X (ix2 r k)) (hc : colb (ix2 p (0 : Fin 1)) = col (ix2 r (0 : Fin 1)))
    (hW : ∀ k : Fin 128, Wb (ix2 k g') = W (ix2 k g)) :
    scaleMulAt Xb colb Wb p g' = scaleMulAt X col W r g := by
  unfold scaleMulAt
  refine Finset.sum_congr rfl fun k _ => ?_
  rw [hX k, hc, hW k]

theorem normBiasReluAt_congr {A : (⟨2, ![a, 128]⟩ : Shape).Idx → EReal} {col : (⟨2, ![a, 1]⟩ : Shape).Idx → EReal}
    {bias : (⟨2, ![1, 128]⟩ : Shape).Idx → EReal} {Ab : (⟨2, ![b, 128]⟩ : Shape).Idx → EReal}
    {colb : (⟨2, ![b, 1]⟩ : Shape).Idx → EReal} {biasb : (⟨2, ![1, 128]⟩ : Shape).Idx → EReal}
    {r : Fin a} {p : Fin b} {q q' : Fin 128}
    (hA : Ab (ix2 p q') = A (ix2 r q)) (hc : colb (ix2 p (0 : Fin 1)) = col (ix2 r (0 : Fin 1)))
    (hb : biasb (ix2 (0 : Fin 1) q') = bias (ix2 (0 : Fin 1) q)) :
    normBiasReluAt Ab colb biasb p q' = normBiasReluAt A col bias r q := by
  unfold normBiasReluAt
  rw [hA, hc, hb]

theorem mulBiasAt_congr {H : (⟨2, ![a, 128]⟩ : Shape).Idx → EReal} {W : (⟨2, ![128, 128]⟩ : Shape).Idx → EReal}
    {bias : (⟨2, ![1, 128]⟩ : Shape).Idx → EReal} {Hb : (⟨2, ![b, 128]⟩ : Shape).Idx → EReal}
    {Wb : (⟨2, ![128, 128]⟩ : Shape).Idx → EReal} {biasb : (⟨2, ![1, 128]⟩ : Shape).Idx → EReal}
    {r : Fin a} {p : Fin b} {g g' : Fin 128}
    (hH : ∀ k : Fin 128, Hb (ix2 p k) = H (ix2 r k)) (hW : ∀ k : Fin 128, Wb (ix2 k g') = W (ix2 k g))
    (hb : biasb (ix2 (0 : Fin 1) g') = bias (ix2 (0 : Fin 1) g)) :
    mulBiasAt Hb Wb biasb p g' = mulBiasAt H W bias r g := by
  unfold mulBiasAt
  rw [hb]
  refine congrArg (· + _) (Finset.sum_congr rfl fun k _ => ?_)
  rw [hH k, hW k]

end Cert.Spec

end
-- ==== Proof.Payloads.lean ====
/-
  What each of the five kernel bodies stores, as a function of the blocks it loads.

  Every body works on one block of 2000 rows. Over the extended reals a conversion to a narrower float format is the
  identity, a shape cast to the same shape is the identity, and a matrix unit's product into the zero accumulator is
  the plain finite sum. So the value a body stores is the specification's per-row computation on that block:
  • the two scale-and-multiply bodies store `scaleMul`: entry `(p, g)` is `∑ k, (X (p, k) · col (p, 0)) · W (k, g)`;
  • the two normalise-shift-clamp bodies store `normBiasRelu`: entry `(p, q)` is `max (A (p, q) · col (p, 0) + b (0, q)) 0`;
  • the head's body stores `mulBias`: entry `(p, g)` is `(∑ k, H (p, k) · W (k, g)) + b (0, g)`.
  Each is an equality of whole blocks, proved entry by entry.
-/
import proofs.«104196_j62938450755768_1_alg».proof.Proof.Gen.KernelIdeal.Skeleton
import proofs.«104196_j62938450755768_1_alg».proof.Proof.Spec
import proofs.«104196_j62938450755768_1_alg».proof.Proof.LibPlainDot
import proofs.«104196_j62938450755768_1_alg».proof.Proof.LibKeepdims
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.ShloMosaic.ValueIdx Cert.KernelIdeal

variable {α : Type}

/-- A column [2000, 1], cast to its own shape and spread along the rows of a [2000, 128] block, holds at `(p, c)`
    the column's entry in row `p`. -/
theorem col_at (x : S2000x1.Idx → α) (hc : S2000x1.ShapeCasts S2000x1) (hb : S2000x1.Broadcasts S2000x128)
    (p : Fin 2000) (c : Fin 128) :
    broadcastTo S2000x128 (shapeCast S2000x1 x hc) hb (ix2 p c) = x (ix2 p (0 : Fin 1)) :=
  (Cert.Lib.Keepdims.broadcastTo_a1_ab_apply _ hb p c).trans (congrFun (shapeCast_self x hc) (ix2 p (0 : Fin 1)))

/-- A row [1, 128], cast to its own shape and spread down the rows of a [2000, 128] block, holds at `(p, c)` the
    row's entry in column `c`. -/
theorem row_at (x : S1x128.Idx → α) (hc : S1x128.ShapeCasts S1x128) (hb : S1x128.Broadcasts S2000x128)
    (p : Fin 2000) (c : Fin 128) :
    broadcastTo S2000x128 (shapeCast S1x128 x hc) hb (ix2 p c) = x (ix2 (0 : Fin 1) c) :=
  (broadcastTo_1b_ab_apply _ hb p c).trans (congrFun (shapeCast_self x hc) (ix2 (0 : Fin 1) c))

/-- The first scale-and-multiply body stores `scaleMul` of its block. -/
theorem pay0 (x0 : Vec Ideal S2000x128 .f32) (x1 : Vec Ideal S2000x1 .f32) (x2 : Vec Ideal S128x128 .f32) :
    Gen.k0_pay1 (F := Ideal) x0 x1 x2 = Cert.Spec.scaleMul (a := 2000) x0 x1 x2 := by
  funext j
  obtain ⟨p, g, rfl⟩ : ∃ (p : Fin 2000) (g : Fin 128), j = ix2 p g := ⟨j 0, j 1, eq_ix2 j⟩
  rw [Cert.Spec.scaleMul_apply]
  unfold Gen.k0_pay1 Cert.Spec.scaleMulAt
  refine (Cert.PlainDot.matmul_zero_apply dot_S2000x128_S128x128_S2000x128_1_0_0_1_n_n rfl _ _ p g).trans
    (Finset.sum_congr rfl fun k _ => ?_)
  exact congrArg (fun y => (x0 (ix2 p k) * y) * x2 (ix2 k g)) (col_at x1 _ _ p k)

/-- The second scale-and-multiply body stores `scaleMul` of its block. -/
theorem pay2 (x0 : Vec Ideal S2000x128 .f32) (x1 : Vec Ideal S2000x1 .f32) (x2 : Vec Ideal S128x128 .f32) :
    Gen.k2_pay1 (F := Ideal) x0 x1 x2 = Cert.Spec.scaleMul (a := 2000) x0 x1 x2 := by
  funext j
  obtain ⟨p, g, rfl⟩ : ∃ (p : Fin 2000) (g : Fin 128), j = ix2 p g := ⟨j 0, j 1, eq_ix2 j⟩
  rw [Cert.Spec.scaleMul_apply]
  unfold Gen.k2_pay1 Cert.Spec.scaleMulAt
  refine (Cert.PlainDot.matmul_zero_apply dot_S2000x128_S128x128_S2000x128_1_0_0_1_n_n rfl _ _ p g).trans
    (Finset.sum_congr rfl fun k _ => ?_)
  exact congrArg₂ (fun y w => (y * w) * x2 (ix2 k g)) (congrFun (shapeCast_self x0 _) (ix2 p k)) (col_at x1 _ _ p k)

/-- A normalise-shift-clamp body's value at `(p, q)`, for either of the two bodies. -/
theorem normBiasRelu_at (x0 : Vec Ideal S2000x128 .f32) (x1 : Vec Ideal S2000x1 .f32) (x2 : Vec Ideal S1x128 .f32)
    (h0 : S2000x128.ShapeCasts S2000x128) (h1 : S2000x1.ShapeCasts S2000x1) (hb1 : S2000x1.Broadcasts S2000x128)
    (h2 : S1x128.ShapeCasts S1x128) (hb2 : S1x128.Broadcasts S2000x128) (p : Fin 2000) (q : Fin 128) :
    max (shapeCast S2000x128 x0 h0 (ix2 p q) * broadcastTo S2000x128 (shapeCast S2000x1 x1 h1) hb1 (ix2 p q)
        + broadcastTo S2000x128 (shapeCast S1x128 x2 h2) hb2 (ix2 p q)) (Ideal.ofBits .f32 0x00000000#32)
      = Cert.Spec.normBiasReluAt (a := 2000) x0 x1 x2 p q := by
  unfold Cert.Spec.normBiasReluAt
  rw [col_at, row_at, shapeCast_self]

/-- The first normalise-shift-clamp body stores `normBiasRelu` of its block. -/
theorem pay1 (x0 : Vec Ideal S2000x128 .f32) (x1 : Vec Ideal S2000x1 .f32) (x2 : Vec Ideal S1x128 .f32) :
    Gen.k1_pay1 (F := Ideal) x0 x1 x2 = Cert.Spec.normBiasRelu (a := 2000) x0 x1 x2 := by
  funext j
  obtain ⟨p, q, rfl⟩ : ∃ (p : Fin 2000) (q : Fin 128), j = ix2 p q := ⟨j 0, j 1, eq_ix2 j⟩
  rw [Cert.Spec.normBiasRelu_apply]
  unfold Gen.k1_pay1
  exact normBiasRelu_at x0 x1 x2 _ _ _ _ _ p q

/-- The second normalise-shift-clamp body stores `normBiasRelu` of its block. -/
theorem pay3 (x0 : Vec Ideal S2000x128 .f32) (x1 : Vec Ideal S2000x1 .f32) (x2 : Vec Ideal S1x128 .f32) :
    Gen.k3_pay1 (F := Ideal) x0 x1 x2 = Cert.Spec.normBiasRelu (a := 2000) x0 x1 x2 := by
  funext j
  obtain ⟨p, q, rfl⟩ : ∃ (p : Fin 2000) (q : Fin 128), j = ix2 p q := ⟨j 0, j 1, eq_ix2 j⟩
  rw [Cert.Spec.normBiasRelu_apply]
  unfold Gen.k3_pay1
  exact normBiasRelu_at x0 x1 x2 _ _ _ _ _ p q

/-- The head's body stores `mulBias` of its block. -/
theorem pay4 (x0 : Vec Ideal S2000x128 .f32) (x1 : Vec Ideal S128x128 .f32) (x2 : Vec Ideal S1x128 .f32) :
    Gen.k4_pay1 (F := Ideal) x0 x1 x2 = Cert.Spec.mulBias (a := 2000) x0 x1 x2 := by
  funext j
  obtain ⟨p, g, rfl⟩ : ∃ (p : Fin 2000) (g : Fin 128), j = ix2 p g := ⟨j 0, j 1, eq_ix2 j⟩
  rw [Cert.Spec.mulBias_apply]
  unfold Gen.k4_pay1 Cert.Spec.mulBiasAt
  refine congrArg₂ (fun y w => y + w) ?_ (row_at x2 _ _ p g)
  refine (Cert.PlainDot.matmul_zero_apply dot_S2000x128_S128x128_S2000x128_1_0_0_1_n_n rfl _ _ p g).trans
    (Finset.sum_congr rfl fun k _ => ?_)
  exact congrArg₂ (fun y w => y * w) (congrFun (shapeCast_self x0 _) (ix2 p k)) (congrFun (shapeCast_self x1 _) (ix2 k g))

end Cert.KernelIdeal.Pay

end
-- ==== Proof.Region0.lean ====
/-
  Launch 0 of the scaled-rows-times-weights kernel, read as one whole-array function.

  The launch walks fifty blocks of 2000 rows. At point `t` the body sees rows `2000 t … 2000 t + 1999` of the feature
  matrix and of the one-column scale, and the whole weight matrix; it writes `Spec.scaleMul` of those blocks to the same
  rows of the result. Because `Spec.scaleMul` computes row `r` of its result from row `r` of the row-indexed operands
  only, what point `t` writes back is block `t` of `Spec.scaleMul` of the whole arrays; the fifty blocks tile the
  result (row `r` lies in block `r / 2000`), so the result array ends as `Spec.scaleMul` of the arrays the launch found.
-/
import proofs.«104196_j62938450755768_1_alg».proof.Proof.Gen.KernelIdeal.Frame
import proofs.«104196_j62938450755768_1_alg».proof.Proof.Spec
import proofs.«104196_j62938450755768_1_alg».proof.Proof.SpecBlocks
import proofs.«104196_j62938450755768_1_alg».proof.Proof.Payloads
import Idealize.ShloMosaic.Lib.Pipeline.Value
import Idealize.ShloMosaic.Lib.ValueIdx

set_option maxRecDepth 16384

noncomputable section

namespace Cert.KernelIdeal.Reg0

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pay (x0 : Vec Ideal S2000x128 .f32) (x1 : Vec Ideal S2000x1 .f32) (x2 : Vec Ideal S128x128 .f32) :
    Gen.k0_pay1 (F := Ideal) x0 x1 x2 = Cert.Spec.scaleMul (a := 2000) x0 x1 x2 := Cert.KernelIdeal.Pay.pay0 x0 x1 x2

theorem hz : (![0, 0] : Fin 2 → Nat) = fun _ => 0 := funext fun a => by fin_cases a <;> rfl

/-- The index maps over the grid: the feature block, the scale block and the result block move together along the
    rows, one block per point; the weights stay at block 0; no map moves along the columns. -/
theorem idx_facts : ∀ t : Fin cfg0.N,
    win0_0.index t (0 : Fin 2) = win0_3.index t (0 : Fin 2) ∧ win0_0.index t (1 : Fin 2) = 0
    ∧ win0_1.index t (0 : Fin 2) = win0_3.index t (0 : Fin 2) ∧ win0_1.index t (1 : Fin 2) = 0
    ∧ win0_2.index t (0 : Fin 2) = 0 ∧ win0_2.index t (1 : Fin 2) = 0
    ∧ win0_3.index t (0 : Fin 2) ≤ 49 ∧ win0_3.index t (1 : Fin 2) = 0 :=
  (by decide +kernel : ∀ t : Fin grid0.N, _)

/-- Every one of the fifty row blocks is some point's. -/
theorem idx_onto : ∀ q0 : Fin 50, ∃ t : Fin cfg0.N, win0_3.index t = ![q0.val, 0] :=
  (by decide +kernel : ∀ q0 : Fin 50, ∃ t : Fin grid0.N, win0_3.index t = ![q0.val, 0])

/-- The whole-array function the launch computes, of the arrays as it finds them. -/
abbrev G (c : Dev nD) : S100000x128.Idx → EReal :=
  Cert.Spec.scaleMul (a := 100000) (V c main_arg0) (V c main_v10) (V c main_arg3)

/-- What point `t` writes back is block `t` of the whole-array function. -/
theorem flushed_eq (c : Dev nD) (t : Fin cfg0.N) :
    (dat0 V c).flushed 3 t = ((cfg0.win 3).blk t).view.read (Elt Ideal) (G V c) := by
  show (cfg0.win 3).cut (grid0.coords t) ((dat0 V c).after 3 t) = _
  rw [after0_3]
  unfold out0_3
  rw [View.canon_unit_zero hz]
  simp only [View.ld_unit_zero (S := S2000x128) hz, View.ld_unit_zero (S := S2000x1) hz, View.ld_unit_zero (S := S128x128) hz]
  rw [pay]
  obtain ⟨e0, e1, e2, e3, e4, e5, e6, e7⟩ := idx_facts t
  funext j
  obtain ⟨p, g, rfl⟩ : ∃ (p : Fin 2000) (g : Fin 128), j = ix2 p g := ⟨j 0, j 1, eq_ix2 j⟩
  show Cert.Spec.scaleMulAt (iblk0 V c 0 t) (iblk0 V c 1 t) (iblk0 V c 2 t) p g
      = Cert.Spec.scaleMulAt (V c main_arg0) (V c main_v10) (V c main_arg3)
          ((((cfg0.win 3).blk t).view.emb (ix2 p g)) 0) ((((cfg0.win 3).blk t).view.emb (ix2 p g)) 1)
  refine Cert.Spec.scaleMulAt_congr (fun k => ?_) ?_ (fun k => ?_)
  · show V c main_arg0 (((cfg0.win 0).blk t).view.emb (ix2 p k)) = V c main_arg0 (ix2 ((((cfg0.win 3).blk t).view.emb (ix2 p g)) 0) k)
    refine congrArg (V c main_arg0) (funext fun a => Fin.ext ?_)
    match a with
    | ⟨0, _⟩ => show win0_0.index t (0 : Fin 2) * 2000 + 1 * p.val = win0_3.index t (0 : Fin 2) * 2000 + 1 * p.val; omega
    | ⟨1, _⟩ => show win0_0.index t (1 : Fin 2) * 128 + 1 * k.val = k.val; omega
  · show V c main_v10 (((cfg0.win 1).blk t).view.emb (ix2 p (0 : Fin 1))) = V c main_v10 (ix2 ((((cfg0.win 3).blk t).view.emb (ix2 p g)) 0) (0 : Fin 1))
    refine congrArg (V c main_v10) (funext fun a => Fin.ext ?_)
    match a with
    | ⟨0, _⟩ => show win0_1.index t (0 : Fin 2) * 2000 + 1 * p.val = win0_3.index t (0 : Fin 2) * 2000 + 1 * p.val; omega
    | ⟨1, _⟩ => show win0_1.index t (1 : Fin 2) * 1 + 1 * 0 = 0; omega
  · show V c main_arg3 (((cfg0.win 2).blk t).view.emb (ix2 k g)) = V c main_arg3 (ix2 k ((((cfg0.win 3).blk t).view.emb (ix2 p g)) 1))
    refine congrArg (V c main_arg3) (funext fun a => Fin.ext ?_)
    match a with
    | ⟨0, _⟩ => show win0_2.index t (0 : Fin 2) * 128 + 1 * k.val = k.val; omega
    | ⟨1, _⟩ => show win0_2.index t (1 : Fin 2) * 128 + 1 * g.val = win0_3.index t (1 : Fin 2) * 128 + 1 * g.val; omega

/-- An index of the result lies in point `t`'s block iff each coordinate lies in the block's range on its axis. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v17).slice (win0_3.rect t)).set ↔ _
  rw [View.set_slice_whole, Rect.mem_set_unit]
  exact Iff.rfl

/-- The fifty blocks tile the result: row `r` lies in block `r / 2000`. -/
theorem cover (i : S100000x128.Idx) :
    ∃ t : Fin cfg0.N, (cfg0.win 3).flush t = true ∧ i ∈ ((cfg0.win 3).blk t).view.set := by
  have hi0 : (i 0).val < 100000 := (i 0).isLt
  have hi1 : (i 1).val < 128 := (i 1).isLt
  obtain ⟨t, ht⟩ := idx_onto ⟨(i 0).val / 2000, by omega⟩
  have q0 : win0_3.index t (0 : Fin 2) = (i 0).val / 2000 := congrFun ht 0
  have q1 : win0_3.index t (1 : Fin 2) = 0 := congrFun ht 1
  refine ⟨t, flush0_3 t, ?_⟩
  rw [mem_blk]
  intro a
  match a with
  | ⟨0, _⟩ => show win0_3.index t (0 : Fin 2) * 2000 ≤ (i 0).val ∧ (i 0).val < win0_3.index t (0 : Fin 2) * 2000 + 2000; omega
  | ⟨1, _⟩ => show win0_3.index t (1 : Fin 2) * 128 ≤ (i 1).val ∧ (i 1).val < win0_3.index t (1 : Fin 2) * 128 + 128; omega

/-- The result array after the launch is the whole-array function of the arrays the launch found. -/
theorem final (c : Dev nD) : (dat0 V c).arrAt 3 cfg0.N = G V c :=
  (dat0 V c).arrAt_eq_of_cover 3 (G V c) (fun t _ => flushed_eq V c t) (cover)

end Cert.KernelIdeal.Reg0

end
-- ==== Proof.Region1.lean ====
/-
  Launch 1 of the scale-shift-clamp kernel, read as one whole-array function.

  The launch walks fifty blocks of 2000 rows. At point `t` the body sees rows `2000 t … 2000 t + 1999` of the
  aggregated features and of the one-column scale, and the whole row of biases; it writes `Spec.normBiasRelu` of those
  blocks to the same rows of the result. `Spec.normBiasRelu` computes entry `(r, q)` from row `r` of the row-indexed
  operands and entry `q` of the biases only, so what point `t` writes back is block `t` of `Spec.normBiasRelu` of the
  whole arrays; the fifty blocks tile the result (row `r` lies in block `r / 2000`), so the result array ends as
  `Spec.normBiasRelu` of the arrays the launch found.
-/
import proofs.«104196_j62938450755768_1_alg».proof.Proof.Gen.KernelIdeal.Frame
import proofs.«104196_j62938450755768_1_alg».proof.Proof.Spec
import proofs.«104196_j62938450755768_1_alg».proof.Proof.SpecBlocks
import proofs.«104196_j62938450755768_1_alg».proof.Proof.Payloads
import Idealize.ShloMosaic.Lib.Pipeline.Value
import Idealize.ShloMosaic.Lib.ValueIdx

set_option maxRecDepth 16384

noncomputable section

namespace Cert.KernelIdeal.Reg1

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pay (x0 : Vec Ideal S2000x128 .f32) (x1 : Vec Ideal S2000x1 .f32) (x2 : Vec Ideal S1x128 .f32) :
    Gen.k1_pay1 (F := Ideal) x0 x1 x2 = Cert.Spec.normBiasRelu (a := 2000) x0 x1 x2 := Cert.KernelIdeal.Pay.pay1 x0 x1 x2

theorem hz : (![0, 0] : Fin 2 → Nat) = fun _ => 0 := funext fun a => by fin_cases a <;> rfl

/-- The index maps over the grid: the feature block, the scale block and the result block move together along the
    rows, one block per point; the biases stay at block 0; no map moves along the columns. -/
theorem idx_facts : ∀ t : Fin cfg1.N,
    win1_0.index t (0 : Fin 2) = win1_3.index t (0 : Fin 2) ∧ win1_0.index t (1 : Fin 2) = 0
    ∧ win1_1.index t (0 : Fin 2) = win1_3.index t (0 : Fin 2) ∧ win1_1.index t (1 : Fin 2) = 0
    ∧ win1_2.index t (0 : Fin 2) = 0 ∧ win1_2.index t (1 : Fin 2) = 0
    ∧ win1_3.index t (0 : Fin 2) ≤ 49 ∧ win1_3.index t (1 : Fin 2) = 0 :=
  (by decide +kernel : ∀ t : Fin grid1.N, _)

/-- Every one of the fifty row blocks is some point's. -/
theorem idx_onto : ∀ q0 : Fin 50, ∃ t : Fin cfg1.N, win1_3.index t = ![q0.val, 0] :=
  (by decide +kernel : ∀ q0 : Fin 50, ∃ t : Fin grid1.N, win1_3.index t = ![q0.val, 0])

/-- The whole-array function the launch computes, of the arrays as it finds them. -/
abbrev G (c : Dev nD) : S100000x128.Idx → EReal :=
  Cert.Spec.normBiasRelu (a := 100000) (V c main_v27) (V c main_v14) (V c main_v15)

/-- What point `t` writes back is block `t` of the whole-array function. -/
theorem flushed_eq (c : Dev nD) (t : Fin cfg1.N) :
    (dat1 V c).flushed 3 t = ((cfg1.win 3).blk t).view.read (Elt Ideal) (G V c) := by
  show (cfg1.win 3).cut (grid1.coords t) ((dat1 V c).after 3 t) = _
  rw [after1_3]
  unfold out1_3
  rw [View.canon_unit_zero hz]
  simp only [View.ld_unit_zero (S := S2000x128) hz, View.ld_unit_zero (S := S2000x1) hz, View.ld_unit_zero (S := S1x128) hz]
  rw [pay]
  obtain ⟨e0, e1, e2, e3, e4, e5, e6, e7⟩ := idx_facts t
  funext j
  obtain ⟨p, q, rfl⟩ : ∃ (p : Fin 2000) (q : Fin 128), j = ix2 p q := ⟨j 0, j 1, eq_ix2 j⟩
  show Cert.Spec.normBiasReluAt (iblk1 V c 0 t) (iblk1 V c 1 t) (iblk1 V c 2 t) p q
      = Cert.Spec.normBiasReluAt (V c main_v27) (V c main_v14) (V c main_v15)
          ((((cfg1.win 3).blk t).view.emb (ix2 p q)) 0) ((((cfg1.win 3).blk t).view.emb (ix2 p q)) 1)
  refine Cert.Spec.normBiasReluAt_congr ?_ ?_ ?_
  · show V c main_v27 (((cfg1.win 0).blk t).view.emb (ix2 p q)) = V c main_v27 (ix2 ((((cfg1.win 3).blk t).view.emb (ix2 p q)) 0) ((((cfg1.win 3).blk t).view.emb (ix2 p q)) 1))
    refine congrArg (V c main_v27) (funext fun a => Fin.ext ?_)
    match a with
    | ⟨0, _⟩ => show win1_0.index t (0 : Fin 2) * 2000 + 1 * p.val = win1_3.index t (0 : Fin 2) * 2000 + 1 * p.val; omega
    | ⟨1, _⟩ => show win1_0.index t (1 : Fin 2) * 128 + 1 * q.val = win1_3.index t (1 : Fin 2) * 128 + 1 * q.val; omega
  · show V c main_v14 (((cfg1.win 1).blk t).view.emb (ix2 p (0 : Fin 1))) = V c main_v14 (ix2 ((((cfg1.win 3).blk t).view.emb (ix2 p q)) 0) (0 : Fin 1))
    refine congrArg (V c main_v14) (funext fun a => Fin.ext ?_)
    match a with
    | ⟨0, _⟩ => show win1_1.index t (0 : Fin 2) * 2000 + 1 * p.val = win1_3.index t (0 : Fin 2) * 2000 + 1 * p.val; omega
    | ⟨1, _⟩ => show win1_1.index t (1 : Fin 2) * 1 + 1 * 0 = 0; omega
  · show V c main_v15 (((cfg1.win 2).blk t).view.emb (ix2 (0 : Fin 1) q)) = V c main_v15 (ix2 (0 : Fin 1) ((((cfg1.win 3).blk t).view.emb (ix2 p q)) 1))
    refine congrArg (V c main_v15) (funext fun a => Fin.ext ?_)
    match a with
    | ⟨0, _⟩ => show win1_2.index t (0 : Fin 2) * 1 + 1 * 0 = 0; omega
    | ⟨1, _⟩ => show win1_2.index t (1 : Fin 2) * 128 + 1 * q.val = win1_3.index t (1 : Fin 2) * 128 + 1 * q.val; omega

/-- An index of the result lies in point `t`'s block iff each coordinate lies in the block's range on its axis. -/
theorem mem_blk (t : Fin cfg1.N) (i : S100000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v28).slice (win1_3.rect t)).set ↔ _
  rw [View.set_slice_whole, Rect.mem_set_unit]
  exact Iff.rfl

/-- The fifty blocks tile the result: row `r` lies in block `r / 2000`. -/
theorem cover (i : S100000x128.Idx) :
    ∃ t : Fin cfg1.N, (cfg1.win 3).flush t = true ∧ i ∈ ((cfg1.win 3).blk t).view.set := by
  have hi0 : (i 0).val < 100000 := (i 0).isLt
  have hi1 : (i 1).val < 128 := (i 1).isLt
  obtain ⟨t, ht⟩ := idx_onto ⟨(i 0).val / 2000, by omega⟩
  have q0 : win1_3.index t (0 : Fin 2) = (i 0).val / 2000 := congrFun ht 0
  have q1 : win1_3.index t (1 : Fin 2) = 0 := congrFun ht 1
  refine ⟨t, flush1_3 t, ?_⟩
  rw [mem_blk]
  intro a
  match a with
  | ⟨0, _⟩ => show win1_3.index t (0 : Fin 2) * 2000 ≤ (i 0).val ∧ (i 0).val < win1_3.index t (0 : Fin 2) * 2000 + 2000; omega
  | ⟨1, _⟩ => show win1_3.index t (1 : Fin 2) * 128 ≤ (i 1).val ∧ (i 1).val < win1_3.index t (1 : Fin 2) * 128 + 128; omega

/-- The result array after the launch is the whole-array function of the arrays the launch found. -/
theorem final (c : Dev nD) : (dat1 V c).arrAt 3 cfg1.N = G V c :=
  (dat1 V c).arrAt_eq_of_cover 3 (G V c) (fun t _ => flushed_eq V c t) (cover)

end Cert.KernelIdeal.Reg1

end
-- ==== Proof.Region2.lean ====
/-
  Launch 2 of the scaled-rows-times-weights kernel, read as one whole-array function.

  The launch walks fifty blocks of 2000 rows. At point `t` the body sees rows `2000 t … 2000 t + 1999` of the feature
  matrix and of the one-column scale, and the whole weight matrix; it writes `Spec.scaleMul` of those blocks to the same
  rows of the result. Because `Spec.scaleMul` computes row `r` of its result from row `r` of the row-indexed operands
  only, what point `t` writes back is block `t` of `Spec.scaleMul` of the whole arrays; the fifty blocks tile the
  result (row `r` lies in block `r / 2000`), so the result array ends as `Spec.scaleMul` of the arrays the launch found.
-/
import proofs.«104196_j62938450755768_1_alg».proof.Proof.Gen.KernelIdeal.Frame
import proofs.«104196_j62938450755768_1_alg».proof.Proof.Spec
import proofs.«104196_j62938450755768_1_alg».proof.Proof.SpecBlocks
import proofs.«104196_j62938450755768_1_alg».proof.Proof.Payloads
import Idealize.ShloMosaic.Lib.Pipeline.Value
import Idealize.ShloMosaic.Lib.ValueIdx

set_option maxRecDepth 16384

noncomputable section

namespace Cert.KernelIdeal.Reg2

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pay (x0 : Vec Ideal S2000x128 .f32) (x1 : Vec Ideal S2000x1 .f32) (x2 : Vec Ideal S128x128 .f32) :
    Gen.k2_pay1 (F := Ideal) x0 x1 x2 = Cert.Spec.scaleMul (a := 2000) x0 x1 x2 := Cert.KernelIdeal.Pay.pay2 x0 x1 x2

theorem hz : (![0, 0] : Fin 2 → Nat) = fun _ => 0 := funext fun a => by fin_cases a <;> rfl

/-- The index maps over the grid: the feature block, the scale block and the result block move together along the
    rows, one block per point; the weights stay at block 0; no map moves along the columns. -/
theorem idx_facts : ∀ t : Fin cfg2.N,
    win2_0.index t (0 : Fin 2) = win2_3.index t (0 : Fin 2) ∧ win2_0.index t (1 : Fin 2) = 0
    ∧ win2_1.index t (0 : Fin 2) = win2_3.index t (0 : Fin 2) ∧ win2_1.index t (1 : Fin 2) = 0
    ∧ win2_2.index t (0 : Fin 2) = 0 ∧ win2_2.index t (1 : Fin 2) = 0
    ∧ win2_3.index t (0 : Fin 2) ≤ 49 ∧ win2_3.index t (1 : Fin 2) = 0 :=
  (by decide +kernel : ∀ t : Fin grid2.N, _)

/-- Every one of the fifty row blocks is some point's. -/
theorem idx_onto : ∀ q0 : Fin 50, ∃ t : Fin cfg2.N, win2_3.index t = ![q0.val, 0] :=
  (by decide +kernel : ∀ q0 : Fin 50, ∃ t : Fin grid2.N, win2_3.index t = ![q0.val, 0])

/-- The whole-array function the launch computes, of the arrays as it finds them. -/
abbrev G (c : Dev nD) : S100000x128.Idx → EReal :=
  Cert.Spec.scaleMul (a := 100000) (V c main_v28) (V c main_v10) (V c main_arg5)

/-- What point `t` writes back is block `t` of the whole-array function. -/
theorem flushed_eq (c : Dev nD) (t : Fin cfg2.N) :
    (dat2 V c).flushed 3 t = ((cfg2.win 3).blk t).view.read (Elt Ideal) (G V c) := by
  show (cfg2.win 3).cut (grid2.coords t) ((dat2 V c).after 3 t) = _
  rw [after2_3]
  unfold out2_3
  rw [View.canon_unit_zero hz]
  simp only [View.ld_unit_zero (S := S2000x128) hz, View.ld_unit_zero (S := S2000x1) hz, View.ld_unit_zero (S := S128x128) hz]
  rw [pay]
  obtain ⟨e0, e1, e2, e3, e4, e5, e6, e7⟩ := idx_facts t
  funext j
  obtain ⟨p, g, rfl⟩ : ∃ (p : Fin 2000) (g : Fin 128), j = ix2 p g := ⟨j 0, j 1, eq_ix2 j⟩
  show Cert.Spec.scaleMulAt (iblk2 V c 0 t) (iblk2 V c 1 t) (iblk2 V c 2 t) p g
      = Cert.Spec.scaleMulAt (V c main_v28) (V c main_v10) (V c main_arg5)
          ((((cfg2.win 3).blk t).view.emb (ix2 p g)) 0) ((((cfg2.win 3).blk t).view.emb (ix2 p g)) 1)
  refine Cert.Spec.scaleMulAt_congr (fun k => ?_) ?_ (fun k => ?_)
  · show V c main_v28 (((cfg2.win 0).blk t).view.emb (ix2 p k)) = V c main_v28 (ix2 ((((cfg2.win 3).blk t).view.emb (ix2 p g)) 0) k)
    refine congrArg (V c main_v28) (funext fun a => Fin.ext ?_)
    match a with
    | ⟨0, _⟩ => show win2_0.index t (0 : Fin 2) * 2000 + 1 * p.val = win2_3.index t (0 : Fin 2) * 2000 + 1 * p.val; omega
    | ⟨1, _⟩ => show win2_0.index t (1 : Fin 2) * 128 + 1 * k.val = k.val; omega
  · show V c main_v10 (((cfg2.win 1).blk t).view.emb (ix2 p (0 : Fin 1))) = V c main_v10 (ix2 ((((cfg2.win 3).blk t).view.emb (ix2 p g)) 0) (0 : Fin 1))
    refine congrArg (V c main_v10) (funext fun a => Fin.ext ?_)
    match a with
    | ⟨0, _⟩ => show win2_1.index t (0 : Fin 2) * 2000 + 1 * p.val = win2_3.index t (0 : Fin 2) * 2000 + 1 * p.val; omega
    | ⟨1, _⟩ => show win2_1.index t (1 : Fin 2) * 1 + 1 * 0 = 0; omega
  · show V c main_arg5 (((cfg2.win 2).blk t).view.emb (ix2 k g)) = V c main_arg5 (ix2 k ((((cfg2.win 3).blk t).view.emb (ix2 p g)) 1))
    refine congrArg (V c main_arg5) (funext fun a => Fin.ext ?_)
    match a with
    | ⟨0, _⟩ => show win2_2.index t (0 : Fin 2) * 128 + 1 * k.val = k.val; omega
    | ⟨1, _⟩ => show win2_2.index t (1 : Fin 2) * 128 + 1 * g.val = win2_3.index t (1 : Fin 2) * 128 + 1 * g.val; omega

/-- An index of the result lies in point `t`'s block iff each coordinate lies in the block's range on its axis. -/
theorem mem_blk (t : Fin cfg2.N) (i : S100000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v29).slice (win2_3.rect t)).set ↔ _
  rw [View.set_slice_whole, Rect.mem_set_unit]
  exact Iff.rfl

/-- The fifty blocks tile the result: row `r` lies in block `r / 2000`. -/
theorem cover (i : S100000x128.Idx) :
    ∃ t : Fin cfg2.N, (cfg2.win 3).flush t = true ∧ i ∈ ((cfg2.win 3).blk t).view.set := by
  have hi0 : (i 0).val < 100000 := (i 0).isLt
  have hi1 : (i 1).val < 128 := (i 1).isLt
  obtain ⟨t, ht⟩ := idx_onto ⟨(i 0).val / 2000, by omega⟩
  have q0 : win2_3.index t (0 : Fin 2) = (i 0).val / 2000 := congrFun ht 0
  have q1 : win2_3.index t (1 : Fin 2) = 0 := congrFun ht 1
  refine ⟨t, flush2_3 t, ?_⟩
  rw [mem_blk]
  intro a
  match a with
  | ⟨0, _⟩ => show win2_3.index t (0 : Fin 2) * 2000 ≤ (i 0).val ∧ (i 0).val < win2_3.index t (0 : Fin 2) * 2000 + 2000; omega
  | ⟨1, _⟩ => show win2_3.index t (1 : Fin 2) * 128 ≤ (i 1).val ∧ (i 1).val < win2_3.index t (1 : Fin 2) * 128 + 128; omega

/-- The result array after the launch is the whole-array function of the arrays the launch found. -/
theorem final (c : Dev nD) : (dat2 V c).arrAt 3 cfg2.N = G V c :=
  (dat2 V c).arrAt_eq_of_cover 3 (G V c) (fun t _ => flushed_eq V c t) (cover)

end Cert.KernelIdeal.Reg2

end
-- ==== Proof.Region3.lean ====
/-
  Launch 3 of the scale-shift-clamp kernel, read as one whole-array function.

  The launch walks fifty blocks of 2000 rows. At point `t` the body sees rows `2000 t … 2000 t + 1999` of the
  aggregated features and of the one-column scale, and the whole row of biases; it writes `Spec.normBiasRelu` of those
  blocks to the same rows of the result. `Spec.normBiasRelu` computes entry `(r, q)` from row `r` of the row-indexed
  operands and entry `q` of the biases only, so what point `t` writes back is block `t` of `Spec.normBiasRelu` of the
  whole arrays; the fifty blocks tile the result (row `r` lies in block `r / 2000`), so the result array ends as
  `Spec.normBiasRelu` of the arrays the launch found.
-/
import proofs.«104196_j62938450755768_1_alg».proof.Proof.Gen.KernelIdeal.Frame
import proofs.«104196_j62938450755768_1_alg».proof.Proof.Spec
import proofs.«104196_j62938450755768_1_alg».proof.Proof.SpecBlocks
import proofs.«104196_j62938450755768_1_alg».proof.Proof.Payloads
import Idealize.ShloMosaic.Lib.Pipeline.Value
import Idealize.ShloMosaic.Lib.ValueIdx

set_option maxRecDepth 16384

noncomputable section

namespace Cert.KernelIdeal.Reg3

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pay (x0 : Vec Ideal S2000x128 .f32) (x1 : Vec Ideal S2000x1 .f32) (x2 : Vec Ideal S1x128 .f32) :
    Gen.k3_pay1 (F := Ideal) x0 x1 x2 = Cert.Spec.normBiasRelu (a := 2000) x0 x1 x2 := Cert.KernelIdeal.Pay.pay3 x0 x1 x2

theorem hz : (![0, 0] : Fin 2 → Nat) = fun _ => 0 := funext fun a => by fin_cases a <;> rfl

/-- The index maps over the grid: the feature block, the scale block and the result block move together along the
    rows, one block per point; the biases stay at block 0; no map moves along the columns. -/
theorem idx_facts : ∀ t : Fin cfg3.N,
    win3_0.index t (0 : Fin 2) = win3_3.index t (0 : Fin 2) ∧ win3_0.index t (1 : Fin 2) = 0
    ∧ win3_1.index t (0 : Fin 2) = win3_3.index t (0 : Fin 2) ∧ win3_1.index t (1 : Fin 2) = 0
    ∧ win3_2.index t (0 : Fin 2) = 0 ∧ win3_2.index t (1 : Fin 2) = 0
    ∧ win3_3.index t (0 : Fin 2) ≤ 49 ∧ win3_3.index t (1 : Fin 2) = 0 :=
  (by decide +kernel : ∀ t : Fin grid3.N, _)

/-- Every one of the fifty row blocks is some point's. -/
theorem idx_onto : ∀ q0 : Fin 50, ∃ t : Fin cfg3.N, win3_3.index t = ![q0.val, 0] :=
  (by decide +kernel : ∀ q0 : Fin 50, ∃ t : Fin grid3.N, win3_3.index t = ![q0.val, 0])

/-- The whole-array function the launch computes, of the arrays as it finds them. -/
abbrev G (c : Dev nD) : S100000x128.Idx → EReal :=
  Cert.Spec.normBiasRelu (a := 100000) (V c main_v39) (V c main_v14) (V c main_v16)

/-- What point `t` writes back is block `t` of the whole-array function. -/
theorem flushed_eq (c : Dev nD) (t : Fin cfg3.N) :
    (dat3 V c).flushed 3 t = ((cfg3.win 3).blk t).view.read (Elt Ideal) (G V c) := by
  show (cfg3.win 3).cut (grid3.coords t) ((dat3 V c).after 3 t) = _
  rw [after3_3]
  unfold out3_3
  rw [View.canon_unit_zero hz]
  simp only [View.ld_unit_zero (S := S2000x128) hz, View.ld_unit_zero (S := S2000x1) hz, View.ld_unit_zero (S := S1x128) hz]
  rw [pay]
  obtain ⟨e0, e1, e2, e3, e4, e5, e6, e7⟩ := idx_facts t
  funext j
  obtain ⟨p, q, rfl⟩ : ∃ (p : Fin 2000) (q : Fin 128), j = ix2 p q := ⟨j 0, j 1, eq_ix2 j⟩
  show Cert.Spec.normBiasReluAt (iblk3 V c 0 t) (iblk3 V c 1 t) (iblk3 V c 2 t) p q
      = Cert.Spec.normBiasReluAt (V c main_v39) (V c main_v14) (V c main_v16)
          ((((cfg3.win 3).blk t).view.emb (ix2 p q)) 0) ((((cfg3.win 3).blk t).view.emb (ix2 p q)) 1)
  refine Cert.Spec.normBiasReluAt_congr ?_ ?_ ?_
  · show V c main_v39 (((cfg3.win 0).blk t).view.emb (ix2 p q)) = V c main_v39 (ix2 ((((cfg3.win 3).blk t).view.emb (ix2 p q)) 0) ((((cfg3.win 3).blk t).view.emb (ix2 p q)) 1))
    refine congrArg (V c main_v39) (funext fun a => Fin.ext ?_)
    match a with
    | ⟨0, _⟩ => show win3_0.index t (0 : Fin 2) * 2000 + 1 * p.val = win3_3.index t (0 : Fin 2) * 2000 + 1 * p.val; omega
    | ⟨1, _⟩ => show win3_0.index t (1 : Fin 2) * 128 + 1 * q.val = win3_3.index t (1 : Fin 2) * 128 + 1 * q.val; omega
  · show V c main_v14 (((cfg3.win 1).blk t).view.emb (ix2 p (0 : Fin 1))) = V c main_v14 (ix2 ((((cfg3.win 3).blk t).view.emb (ix2 p q)) 0) (0 : Fin 1))
    refine congrArg (V c main_v14) (funext fun a => Fin.ext ?_)
    match a with
    | ⟨0, _⟩ => show win3_1.index t (0 : Fin 2) * 2000 + 1 * p.val = win3_3.index t (0 : Fin 2) * 2000 + 1 * p.val; omega
    | ⟨1, _⟩ => show win3_1.index t (1 : Fin 2) * 1 + 1 * 0 = 0; omega
  · show V c main_v16 (((cfg3.win 2).blk t).view.emb (ix2 (0 : Fin 1) q)) = V c main_v16 (ix2 (0 : Fin 1) ((((cfg3.win 3).blk t).view.emb (ix2 p q)) 1))
    refine congrArg (V c main_v16) (funext fun a => Fin.ext ?_)
    match a with
    | ⟨0, _⟩ => show win3_2.index t (0 : Fin 2) * 1 + 1 * 0 = 0; omega
    | ⟨1, _⟩ => show win3_2.index t (1 : Fin 2) * 128 + 1 * q.val = win3_3.index t (1 : Fin 2) * 128 + 1 * q.val; omega

/-- An index of the result lies in point `t`'s block iff each coordinate lies in the block's range on its axis. -/
theorem mem_blk (t : Fin cfg3.N) (i : S100000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v40).slice (win3_3.rect t)).set ↔ _
  rw [View.set_slice_whole, Rect.mem_set_unit]
  exact Iff.rfl

/-- The fifty blocks tile the result: row `r` lies in block `r / 2000`. -/
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  obtain ⟨t, ht⟩ := idx_onto ⟨(i 0).val / 2000, by omega⟩
  have q0 : win3_3.index t (0 : Fin 2) = (i 0).val / 2000 := congrFun ht 0
  have q1 : win3_3.index t (1 : Fin 2) = 0 := congrFun ht 1
  refine ⟨t, flush3_3 t, ?_⟩
  rw [mem_blk]
  intro a
  match a with
  | ⟨0, _⟩ => show win3_3.index t (0 : Fin 2) * 2000 ≤ (i 0).val ∧ (i 0).val < win3_3.index t (0 : Fin 2) * 2000 + 2000; omega
  | ⟨1, _⟩ => show win3_3.index t (1 : Fin 2) * 128 ≤ (i 1).val ∧ (i 1).val < win3_3.index t (1 : Fin 2) * 128 + 128; omega

/-- The result array after the launch is the whole-array function of the arrays the launch found. -/
theorem final (c : Dev nD) : (dat3 V c).arrAt 3 cfg3.N = G V c :=
  (dat3 V c).arrAt_eq_of_cover 3 (G V c) (fun t _ => flushed_eq V c t) (cover)

end Cert.KernelIdeal.Reg3

end
-- ==== Proof.Region4.lean ====
/-
  The launch of the rows-times-weights-plus-biases kernel, read as one whole-array function.

  The launch walks fifty blocks of 2000 rows. At point `t` the body sees rows `2000 t … 2000 t + 1999` of the features,
  the whole weight matrix and the whole row of biases; it writes `Spec.mulBias` of those to the same rows of the
  result. `Spec.mulBias` computes row `r` of its result from row `r` of the features only, so what point `t` writes back
  is block `t` of `Spec.mulBias` of the whole arrays; the fifty blocks tile the result (row `r` lies in block
  `r / 2000`), so the result array ends as `Spec.mulBias` of the arrays the launch found.
-/
import proofs.«104196_j62938450755768_1_alg».proof.Proof.Gen.KernelIdeal.Frame
import proofs.«104196_j62938450755768_1_alg».proof.Proof.Spec
import proofs.«104196_j62938450755768_1_alg».proof.Proof.SpecBlocks
import proofs.«104196_j62938450755768_1_alg».proof.Proof.Payloads
import Idealize.ShloMosaic.Lib.Pipeline.Value
import Idealize.ShloMosaic.Lib.ValueIdx

set_option maxRecDepth 16384

noncomputable section

namespace Cert.KernelIdeal.Reg4

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem pay (x0 : Vec Ideal S2000x128 .f32) (x1 : Vec Ideal S128x128 .f32) (x2 : Vec Ideal S1x128 .f32) :
    Gen.k4_pay1 (F := Ideal) x0 x1 x2 = Cert.Spec.mulBias (a := 2000) x0 x1 x2 := Cert.KernelIdeal.Pay.pay4 x0 x1 x2

theorem hz : (![0, 0] : Fin 2 → Nat) = fun _ => 0 := funext fun a => by fin_cases a <;> rfl

/-- The index maps over the grid: the feature block and the result block move together along the rows, one block
    per point; the weights and the biases stay at block 0; no map moves along the columns. -/
theorem idx_facts : ∀ t : Fin cfg4.N,
    win4_0.index t (0 : Fin 2) = win4_3.index t (0 : Fin 2) ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) ≤ 49 ∧ win4_3.index t (1 : Fin 2) = 0 :=
  (by decide +kernel : ∀ t : Fin grid4.N, _)

/-- Every one of the fifty row blocks is some point's. -/
theorem idx_onto : ∀ q0 : Fin 50, ∃ t : Fin cfg4.N, win4_3.index t = ![q0.val, 0] :=
  (by decide +kernel : ∀ q0 : Fin 50, ∃ t : Fin grid4.N, win4_3.index t = ![q0.val, 0])

/-- The whole-array function the launch computes, of the arrays as it finds them. -/
abbrev G (c : Dev nD) : S100000x128.Idx → EReal :=
  Cert.Spec.mulBias (a := 100000) (V c main_v40) (V c main_v41) (V c main_v43)

/-- What point `t` writes back is block `t` of the whole-array function. -/
theorem flushed_eq (c : Dev nD) (t : Fin cfg4.N) :
    (dat4 V c).flushed 3 t = ((cfg4.win 3).blk t).view.read (Elt Ideal) (G V c) := by
  show (cfg4.win 3).cut (grid4.coords t) ((dat4 V c).after 3 t) = _
  rw [after4_3]
  unfold out4_3
  rw [View.canon_unit_zero hz]
  simp only [View.ld_unit_zero (S := S2000x128) hz, View.ld_unit_zero (S := S128x128) hz, View.ld_unit_zero (S := S1x128) hz]
  rw [pay]
  obtain ⟨e0, e1, e2, e3, e4, e5, e6, e7⟩ := idx_facts t
  funext j
  obtain ⟨p, g, rfl⟩ : ∃ (p : Fin 2000) (g : Fin 128), j = ix2 p g := ⟨j 0, j 1, eq_ix2 j⟩
  show Cert.Spec.mulBiasAt (iblk4 V c 0 t) (iblk4 V c 1 t) (iblk4 V c 2 t) p g
      = Cert.Spec.mulBiasAt (V c main_v40) (V c main_v41) (V c main_v43)
          ((((cfg4.win 3).blk t).view.emb (ix2 p g)) 0) ((((cfg4.win 3).blk t).view.emb (ix2 p g)) 1)
  refine Cert.Spec.mulBiasAt_congr (fun k => ?_) (fun k => ?_) ?_
  · show V c main_v40 (((cfg4.win 0).blk t).view.emb (ix2 p k)) = V c main_v40 (ix2 ((((cfg4.win 3).blk t).view.emb (ix2 p g)) 0) k)
    refine congrArg (V c main_v40) (funext fun a => Fin.ext ?_)
    match a with
    | ⟨0, _⟩ => show win4_0.index t (0 : Fin 2) * 2000 + 1 * p.val = win4_3.index t (0 : Fin 2) * 2000 + 1 * p.val; omega
    | ⟨1, _⟩ => show win4_0.index t (1 : Fin 2) * 128 + 1 * k.val = k.val; omega
  · show V c main_v41 (((cfg4.win 1).blk t).view.emb (ix2 k g)) = V c main_v41 (ix2 k ((((cfg4.win 3).blk t).view.emb (ix2 p g)) 1))
    refine congrArg (V c main_v41) (funext fun a => Fin.ext ?_)
    match a with
    | ⟨0, _⟩ => show win4_1.index t (0 : Fin 2) * 128 + 1 * k.val = k.val; omega
    | ⟨1, _⟩ => show win4_1.index t (1 : Fin 2) * 128 + 1 * g.val = win4_3.index t (1 : Fin 2) * 128 + 1 * g.val; omega
  · show V c main_v43 (((cfg4.win 2).blk t).view.emb (ix2 (0 : Fin 1) g)) = V c main_v43 (ix2 (0 : Fin 1) ((((cfg4.win 3).blk t).view.emb (ix2 p g)) 1))
    refine congrArg (V c main_v43) (funext fun a => Fin.ext ?_)
    match a with
    | ⟨0, _⟩ => show win4_2.index t (0 : Fin 2) * 1 + 1 * 0 = 0; omega
    | ⟨1, _⟩ => show win4_2.index t (1 : Fin 2) * 128 + 1 * g.val = win4_3.index t (1 : Fin 2) * 128 + 1 * g.val; omega

/-- An index of the result lies in point `t`'s block iff each coordinate lies in the block's range on its axis. -/
theorem mem_blk (t : Fin cfg4.N) (i : S100000x128.Idx) :
    i ∈ ((cfg4.win 3).blk t).view.set ↔ ∀ a : Fin 2, win4_3.index t a * S2000x128.size a ≤ (i a).val ∧ (i a).val < win4_3.index t a * S2000x128.size a + S2000x128.size a := by
  show i ∈ ((View.whole main_v44).slice (win4_3.rect t)).set ↔ _
  rw [View.set_slice_whole, Rect.mem_set_unit]
  exact Iff.rfl

/-- The fifty blocks tile the result: row `r` lies in block `r / 2000`. -/
theorem cover (i : S100000x128.Idx) :
    ∃ t : Fin cfg4.N, (cfg4.win 3).flush t = true ∧ i ∈ ((cfg4.win 3).blk t).view.set := by
  have hi0 : (i 0).val < 100000 := (i 0).isLt
  have hi1 : (i 1).val < 128 := (i 1).isLt
  obtain ⟨t, ht⟩ := idx_onto ⟨(i 0).val / 2000, by omega⟩
  have q0 : win4_3.index t (0 : Fin 2) = (i 0).val / 2000 := congrFun ht 0
  have q1 : win4_3.index t (1 : Fin 2) = 0 := congrFun ht 1
  refine ⟨t, flush4_3 t, ?_⟩
  rw [mem_blk]
  intro a
  match a with
  | ⟨0, _⟩ => show win4_3.index t (0 : Fin 2) * 2000 ≤ (i 0).val ∧ (i 0).val < win4_3.index t (0 : Fin 2) * 2000 + 2000; omega
  | ⟨1, _⟩ => show win4_3.index t (1 : Fin 2) * 128 ≤ (i 1).val ∧ (i 1).val < win4_3.index t (1 : Fin 2) * 128 + 128; omega

/-- The result array after the launch is the whole-array function of the arrays the launch found. -/
theorem final (c : Dev nD) : (dat4 V c).arrAt 3 cfg4.N = G V c :=
  (dat4 V c).arrAt_eq_of_cover 3 (G V c) (fun t _ => flushed_eq V c t) (cover)

end Cert.KernelIdeal.Reg4

end
-- ==== Proof.Value.lean ====
/-
  The idealized kernel's result is the reference's last stage, applied to the launch contents of the arguments.

  Segment by segment, each array a later segment reads is identified with a stage of the reference:
  • launch 0 leaves `Spec.scaleMul` of the features, the out-degree scale column and the first weights, which is the
    reference's scaled product (its stage 16);
  • the gather along the edges' sources and the scatter-add along their targets are the same host operations in both
    programs, so applied to equal arrays they give equal arrays (stages 26 and 61);
  • launch 1 leaves `Spec.normBiasRelu` of the aggregate, the in-degree scale column and the bias row: the
    reference's scale, shift and clamp (stage 34); launches 2 and 3 repeat the layer (stages 51 and 69) — the
    reference recomputes the two degree scales for its second layer by the same operations, so they are the same
    vectors;
  • the last launch leaves `Spec.mulBias` of the second layer's output with the head's weights and biases widened
    from 16 to 128 columns; the first 16 columns of that are the reference's head (stage 73).
-/
import proofs.«104196_j62938450755768_1_alg».proof.Proof.Carry
import proofs.«104196_j62938450755768_1_alg».proof.Proof.RefStages
import proofs.«104196_j62938450755768_1_alg».proof.Proof.Region0
import proofs.«104196_j62938450755768_1_alg».proof.Proof.Region1
import proofs.«104196_j62938450755768_1_alg».proof.Proof.Region2
import proofs.«104196_j62938450755768_1_alg».proof.Proof.Region3
import proofs.«104196_j62938450755768_1_alg».proof.Proof.Region4

set_option maxRecDepth 16384

noncomputable section

namespace Cert.Spec

variable {a : ℕ}

theorem scaleMul_congr3 {X X' : (⟨2, ![a, 128]⟩ : Idealize.ShloMosaic.Shape).Idx → EReal}
    {col col' : (⟨2, ![a, 1]⟩ : Idealize.ShloMosaic.Shape).Idx → EReal}
    {W W' : (⟨2, ![128, 128]⟩ : Idealize.ShloMosaic.Shape).Idx → EReal} (h1 : X = X') (h2 : col = col') (h3 : W = W') :
    scaleMul X col W = scaleMul X' col' W' := by subst h1 h2 h3; rfl

theorem normBiasRelu_congr3 {A A' : (⟨2, ![a, 128]⟩ : Idealize.ShloMosaic.Shape).Idx → EReal}
    {col col' : (⟨2, ![a, 1]⟩ : Idealize.ShloMosaic.Shape).Idx → EReal}
    {b b' : (⟨2, ![1, 128]⟩ : Idealize.ShloMosaic.Shape).Idx → EReal} (h1 : A = A') (h2 : col = col') (h3 : b = b') :
    normBiasRelu A col b = normBiasRelu A' col' b' := by subst h1 h2 h3; rfl

theorem mulBias_congr3 {H H' : (⟨2, ![a, 128]⟩ : Idealize.ShloMosaic.Shape).Idx → EReal}
    {W W' : (⟨2, ![128, 128]⟩ : Idealize.ShloMosaic.Shape).Idx → EReal}
    {b b' : (⟨2, ![1, 128]⟩ : Idealize.ShloMosaic.Shape).Idx → EReal} (h1 : H = H') (h2 : W = W') (h3 : b = b') :
    mulBias H W b = mulBias H' W' b' := by subst h1 h2 h3; rfl

end Cert.Spec

namespace Cert.KernelIdeal.Val

open Cert.KernelIdeal Cert.KernelIdeal.Gen Cert.KernelIdeal.Carry
open Idealize.ShloMosaic Idealize.ShloMosaic.TcCoe Idealize.SL.Sem Idealize.ShloMosaic.StableHlo
open Cert.ReferenceIdeal.Read (val_main_v12 val_main_v16 val_main_v26 val_main_v27 val_main_v34 val_main_v47 val_main_v51
  val_main_v61 val_main_v62 val_main_v69 val_main_v73)

variable (m : (ℓ : Loc nD τ sig) → Buf (Elt Ideal) ℓ) (ρ : Dev nD → PrngReg) (c : Dev nD)

/-- The reference recomputes the out-degree scale for its second layer by the same operations. -/
theorem scale_out_again (x1 : (⟨S600000, .i32⟩ : BufTy).Contents (Elt Ideal)) :
    val_main_v47 (F := Ideal) x1 = val_main_v12 (F := Ideal) x1 := rfl

/-- The reference recomputes the in-degree scale for its second layer by the same operations. -/
theorem scale_in_again (x2 : (⟨S600000, .i32⟩ : BufTy).Contents (Elt Ideal)) :
    val_main_v62 (F := Ideal) x2 = val_main_v27 (F := Ideal) x2 := rfl

/-- Gather the rows of `A` along the edges' sources `x1` (a negative index counted from the end, as array indexing
    does) and add them up along the edges' targets `x2`: the host operations between two launches, as one function. -/
def aggregate (A : (⟨S100000x128, .f32⟩ : BufTy).Contents (Elt Ideal)) (x1 x2 : (⟨S600000, .i32⟩ : BufTy).Contents (Elt Ideal)) :
    (⟨S100000x128, .f32⟩ : BufTy).Contents (Elt Ideal) :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 x2)
    (Host.gather gather_S100000x128_S600000x1_S600000x128_1_0_n_n_0_1_1128 A
      (broadcastInDim S600000x1 ![0] bcast_S600000_S600000x1_0
        (select (cmpi .slt x1 (broadcastInDim S600000 ![] bcast_S_S600000 (constantI S_ 32 0#32)))
          (addi x1 (broadcastInDim S600000 ![] bcast_S_S600000 (constantI S_ 32 100000#32))) x1)))

/-- The host stretch between launches 0 and 1 computes the aggregate of what it finds, whatever that is. -/
theorem host_aggregate1 (Wv : Valuation τ sig (Elt Ideal)) :
    StableHlo.after hostOps1 Wv (Proc.devRef .tc main_v27)
      = aggregate (Wv (Proc.devRef .tc main_v17)) (Wv (Proc.devRef .tc main_arg1)) (Wv (Proc.devRef .tc main_arg2)) := by
  dsimp only [hostOps1]
  after_results <;> rfl

/-- The host stretch between launches 2 and 3 computes the aggregate of what it finds, whatever that is. -/
theorem host_aggregate3 (Wv : Valuation τ sig (Elt Ideal)) :
    StableHlo.after hostOps3 Wv (Proc.devRef .tc main_v39)
      = aggregate (Wv (Proc.devRef .tc main_v29)) (Wv (Proc.devRef .tc main_arg1)) (Wv (Proc.devRef .tc main_arg2)) := by
  dsimp only [hostOps3]
  after_results <;> rfl

/-- Launch 0's result is the reference's first scaled product. -/
theorem s2 : W2 m ρ c (Proc.devRef .tc main_v17) = val_main_v16 (F := Ideal) (m ((c : Thread nD τ).loc main_arg0)) (m ((c : Thread nD τ).loc main_arg1)) (m ((c : Thread nD τ).loc main_arg3)) :=
  (W2_arr m ρ c 3).trans ((Cert.KernelIdeal.Reg0.final (V1 m ρ) c).trans
    ((Cert.Spec.scaleMul_congr3 (w1_main_arg0 m ρ c) (w1_main_v10 m ρ c) (w1_main_arg3 m ρ c)).trans
      (Cert.ReferenceIdeal.Bridge.ref_scaleMul (m ((c : Thread nD τ).loc main_arg0)) (val_main_v12 (F := Ideal) (m ((c : Thread nD τ).loc main_arg1))) (m ((c : Thread nD τ).loc main_arg3)) shapeCasts_S100000_S100000x1).symm))

/-- The first layer's aggregate is the reference's. -/
theorem s3 : W3 m ρ c (Proc.devRef .tc main_v27) = val_main_v26 (F := Ideal) (m ((c : Thread nD τ).loc main_arg0)) (m ((c : Thread nD τ).loc main_arg1)) (m ((c : Thread nD τ).loc main_arg2)) (m ((c : Thread nD τ).loc main_arg3)) := by
  show StableHlo.after hostOps1 (W2 m ρ c) (Proc.devRef .tc main_v27) = _
  rw [host_aggregate1, s2 m ρ c, w2_main_arg1 m ρ c, w2_main_arg2 m ρ c]
  rfl

/-- Launch 1's result is the reference's first layer. -/
theorem s4 : W4 m ρ c (Proc.devRef .tc main_v28) = val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4)) :=
  (W4_arr m ρ c 3).trans ((Cert.KernelIdeal.Reg1.final (V3 m ρ) c).trans
    ((Cert.Spec.normBiasRelu_congr3 (s3 m ρ c) (w3_main_v14 m ρ c) (w3_main_v15 m ρ c)).trans
      (Cert.ReferenceIdeal.Bridge.ref_normBiasRelu (val_main_v26 (F := Ideal) (m ((c : Thread nD τ).loc main_arg0)) (m ((c : Thread nD τ).loc main_arg1)) (m ((c : Thread nD τ).loc main_arg2)) (m ((c : Thread nD τ).loc main_arg3))) (val_main_v27 (F := Ideal) (m ((c : Thread nD τ).loc main_arg2))) (m ((c : Thread nD τ).loc main_arg4))
        shapeCasts_S100000_S100000x1 shapeCasts_S128_S1x128).symm))

/-- Launch 2's result is the reference's second scaled product. -/
theorem s5 : W5 m ρ c (Proc.devRef .tc main_v29) = val_main_v51 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  (W5_arr m ρ c 3).trans ((Cert.KernelIdeal.Reg2.final (V4 m ρ) c).trans
    ((Cert.Spec.scaleMul_congr3 (s4 m ρ c) (w4_main_v10 m ρ c) (w4_main_arg5 m ρ c)).trans
      (Cert.ReferenceIdeal.Bridge.ref_scaleMul (val_main_v34 (F := Ideal) (m ((c : Thread nD τ).loc main_arg0)) (m ((c : Thread nD τ).loc main_arg1)) (m ((c : Thread nD τ).loc main_arg2)) (m ((c : Thread nD τ).loc main_arg3)) (m ((c : Thread nD τ).loc main_arg4))) (val_main_v12 (F := Ideal) (m ((c : Thread nD τ).loc main_arg1))) (m ((c : Thread nD τ).loc main_arg5)) shapeCasts_S100000_S100000x1).symm))

/-- The second layer's aggregate is the reference's. -/
theorem s6 : W6 m ρ c (Proc.devRef .tc main_v39) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  show StableHlo.after hostOps3 (W5 m ρ c) (Proc.devRef .tc main_v39) = _
  rw [host_aggregate3, s5 m ρ c, w5_main_arg1 m ρ c, w5_main_arg2 m ρ c]
  rfl

/-- Launch 3's result is the reference's second layer. -/
theorem s7 : W7 m ρ c (Proc.devRef .tc main_v40) = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (W7_arr m ρ c 3).trans ((Cert.KernelIdeal.Reg3.final (V6 m ρ) c).trans
    ((Cert.Spec.normBiasRelu_congr3 (s6 m ρ c) (w6_main_v14 m ρ c) (w6_main_v16 m ρ c)).trans
      (Cert.ReferenceIdeal.Bridge.ref_normBiasRelu (val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))) (val_main_v27 (F := Ideal) (m ((c : Thread nD τ).loc main_arg2))) (m ((c : Thread nD τ).loc main_arg6))
        shapeCasts_S100000_S100000x1 shapeCasts_S128_S1x128).symm))

/-- The second layer's output reaches the last launch unchanged. -/
theorem s12_v40 : W12 m ρ c (Proc.devRef .tc main_v40) = Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) :=
  (show StableHlo.after hostOps4_4 (StableHlo.after hostOps4_3 (StableHlo.after hostOps4_2 (StableHlo.after hostOps4_1
      (StableHlo.after hostOps4 (W7 m ρ c))))) (Proc.devRef .tc main_v40) = W7 m ρ c (Proc.devRef .tc main_v40) by
    dsimp only [hostOps4, hostOps4_1, hostOps4_2, hostOps4_3, hostOps4_4]; after_results).trans (s7 m ρ c)

/-- The head's weights widened to 128 columns. -/
theorem s12_v41 : W12 m ρ c (Proc.devRef .tc main_v41)
    = pad S128x128 ![0, 0] ![0, 112] ![0, 0] (m ((c : Thread nD τ).loc main_arg7)) (sitofp (F := Ideal) .f32 (constantI S_ 32 0#32)) pads_S128x16_S128x128_000_01120 h_S_ := by
  show StableHlo.after hostOps4_4 (StableHlo.after hostOps4_3 (StableHlo.after hostOps4_2 (StableHlo.after hostOps4_1
      (StableHlo.after hostOps4 (W7 m ρ c))))) (Proc.devRef .tc main_v41) = _
  dsimp only [hostOps4, hostOps4_1, hostOps4_2, hostOps4_3, hostOps4_4]
  after_results
  rw [w7_main_arg7 m ρ c]
  rfl

/-- The head's biases widened to 128 entries, as a row. -/
theorem s12_v43 : W12 m ρ c (Proc.devRef .tc main_v43)
    = fun i => shapeCast S1x128 (pad S128 ![0] ![112] ![0] (m ((c : Thread nD τ).loc main_arg8)) (sitofp (F := Ideal) .f32 (constantI S_ 32 0#32)) pads_S16_S128_01120 h_S_) shapeCasts_S128_S1x128 i := by
  show StableHlo.after hostOps4_4 (StableHlo.after hostOps4_3 (StableHlo.after hostOps4_2 (StableHlo.after hostOps4_1
      (StableHlo.after hostOps4 (W7 m ρ c))))) (Proc.devRef .tc main_v43) = _
  dsimp only [hostOps4, hostOps4_1, hostOps4_2, hostOps4_3, hostOps4_4]
  after_results
  rw [w7_main_arg8 m ρ c]
  rfl

/-- The result array: the first 16 columns of the last launch's output are the reference's head. -/
theorem result_eq : W14 m ρ c (Proc.devRef .tc main_v45) = val_main_v73 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) := by
  show StableHlo.after hostOps5 (W13 m ρ c) (Proc.devRef .tc main_v45) = _
  dsimp only [hostOps5]
  after_results
  rw [show W13 m ρ c (Proc.devRef .tc main_v44) = _ from (W13_arr m ρ c 3).trans ((Cert.KernelIdeal.Reg4.final (V12 m ρ) c).trans
    (Cert.Spec.mulBias_congr3 (s12_v40 m ρ c) (s12_v41 m ρ c) (s12_v43 m ρ c)))]
  exact (Cert.ReferenceIdeal.Bridge.ref_head (Cert.ReferenceIdeal.Read.val_main_v69 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))) (m ((c : Thread nD τ).loc main_arg7)) (m ((c : Thread nD τ).loc main_arg8))
    (sitofp (F := Ideal) .f32 (constantI S_ 32 0#32)) pads_S128x16_S128x128_000_01120 h_S_ pads_S16_S128_01120 shapeCasts_S128_S1x128
    slices_S100000x128_S100000x16_0_0).symm

end Cert.KernelIdeal.Val

end
-- ==== Proof.Claims.lean ====
/-
  The five claims.

  The three frames: the two kernel programs by their generated frame certificates; the reference, which has no
  kernel, by its generated run with the result dropped. The idealization rewrote nothing, so `preserves` asks nothing.
  `algebraic`: the idealized kernel's run ends with its result array at the reference's last stage applied to the
  launch contents of its arguments (`Val.result_eq` over the run with the result named), the reference's run ends
  with its result at the same stage of its own arguments, and the two programs' arguments agree.
-/
import proofs.«104196_j62938450755768_1_alg».proof.Defs
import proofs.«104196_j62938450755768_1_alg».proof.Proof.Gen.Kernel.Frame
import proofs.«104196_j62938450755768_1_alg».proof.Proof.Gen.KernelIdeal.Frame
import proofs.«104196_j62938450755768_1_alg».proof.Proof.Gen.ReferenceIdeal.Run
import proofs.«104196_j62938450755768_1_alg».proof.Proof.Gen.ReferenceIdeal.Read
import proofs.«104196_j62938450755768_1_alg».proof.Proof.Gen.Pre_finite_inputs
import proofs.«104196_j62938450755768_1_alg».proof.Proof.RunResult
import proofs.«104196_j62938450755768_1_alg».proof.Proof.Value

noncomputable section

namespace Cert.Proof.Claims

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨fun c => Cert.ReferenceIdeal.Read.val_main_v73 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.Val.result_eq m ρ c), (h c).2⟩)
      (Cert.KernelIdeal.RunV.run_result m ρ)
  · refine (θ_run Cert.ReferenceIdeal.defs _ _).mono (fun r h c => ⟨(h c).1.trans ?_, (h c).2⟩)
      (Cert.ReferenceIdeal.Value.run (F := Ideal) m' ρ')
    obtain ⟨a0, a1, a2, a3, a4, a5, a6, a7, a8⟩ := hagree c
    rw [Cert.ReferenceIdeal.Read.val_main_v73_eq, a0, a1, a2, a3, a4, a5, a6, a7, a8]

end Cert.Proof.Claims

end
-- ==== Proof.lean ====
/-
  The certificate of a two-layer graph convolution with a linear head against its plain reference.

  The kernel computes each dense stage — rows scaled by `rsqrt (max (degree, 1))` and multiplied by a weight matrix;
  the aggregate scaled, shifted by a bias and clamped at zero; the head's product plus bias — in a launch over fifty
  blocks of 2000 rows, with the gather along the edges' sources and the scatter-add along their targets left to host
  operations; the reference computes the same stages on whole arrays. Over the extended reals every launch's result
  is the corresponding whole-array stage (Proof/Region0 … Region4 over Proof/Spec), the host operations between the
  launches are the reference's own, and the head's zero padding to 128 columns is sliced away again, so stage by
  stage the two programs hold equal arrays (Proof/Value) and end with equal results (Proof/Claims). No step moves a
  factor across a sum, so the inputs' finiteness is never used.
-/
import proofs.«104196_j62938450755768_1_alg».proof.Defs
import proofs.«104196_j62938450755768_1_alg».proof.Proof.Gen.Kernel
import proofs.«104196_j62938450755768_1_alg».proof.Proof.Gen.Kernel.Skeleton
import proofs.«104196_j62938450755768_1_alg».proof.Proof.Gen.Kernel.Launch
import proofs.«104196_j62938450755768_1_alg».proof.Proof.Gen.Kernel.Points
import proofs.«104196_j62938450755768_1_alg».proof.Proof.Gen.Kernel.Frame
import proofs.«104196_j62938450755768_1_alg».proof.Proof.Gen.KernelIdeal
import proofs.«104196_j62938450755768_1_alg».proof.Proof.Gen.KernelIdeal.Skeleton
import proofs.«104196_j62938450755768_1_alg».proof.Proof.Gen.KernelIdeal.Launch
import proofs.«104196_j62938450755768_1_alg».proof.Proof.Gen.KernelIdeal.Points
import proofs.«104196_j62938450755768_1_alg».proof.Proof.Gen.KernelIdeal.Frame
import proofs.«104196_j62938450755768_1_alg».proof.Proof.Gen.ReferenceIdeal
import proofs.«104196_j62938450755768_1_alg».proof.Proof.Gen.Pre_finite_inputs
import proofs.«104196_j62938450755768_1_alg».proof.Proof.Gen.ReferenceIdeal.Run
import proofs.«104196_j62938450755768_1_alg».proof.Proof.Gen.ReferenceIdeal.Read
import proofs.«104196_j62938450755768_1_alg».proof.Proof.Claims
import Idealize.ShloMosaic.Adequacy
import Idealize.ShloMosaic.Init

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Claims.frame_k, Claims.frame_ki, Claims.frame_ri, Claims.preserves, Claims.algebraic⟩

end Cert.Proof

end
